-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x640000 32) (main_arg2 : FVec F S640000x1 .f32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S640000x257 : Shape := ⟨2, ![640000, 257]⟩
abbrev S640000x384 : Shape := ⟨2, ![640000, 384]⟩
abbrev S384x128 : Shape := ⟨2, ![384, 128]⟩
abbrev S2560x384 : Shape := ⟨2, ![2560, 384]⟩
abbrev S2560x128 : Shape := ⟨2, ![2560, 128]⟩
abbrev S1x128 : Shape := ⟨2, ![1, 128]⟩
abbrev S10000x256 : Shape := ⟨2, ![10000, 256]⟩
abbrev S2000x256 : Shape := ⟨2, ![2000, 256]⟩
abbrev S2000x128 : Shape := ⟨2, ![2000, 128]⟩

abbrev nBuf : Space → Nat
  | .hbm => 47
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x1, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x257, .f32⟩
  | .hbm, ⟨34, _⟩ => ⟨S_, .i32⟩
  | .hbm, ⟨35, _⟩ => ⟨S_, .f32⟩
  | .hbm, ⟨36, _⟩ => ⟨S640000x384, .f32⟩
  | .hbm, ⟨37, _⟩ => ⟨S_, .i32⟩
  | .hbm, ⟨38, _⟩ => ⟨S_, .f32⟩
  | .hbm, ⟨39, _⟩ => ⟨S384x128, .f32⟩
  | .hbm, ⟨40, _⟩ => ⟨S640000x128, .f32⟩
  | .hbm, ⟨41, _⟩ => ⟨S_, .f32⟩
  | .hbm, ⟨42, _⟩ => ⟨S10000x128, .f32⟩
  | .hbm, ⟨43, _⟩ => ⟨S640000x1, .i32⟩
  | .hbm, ⟨44, _⟩ => ⟨S10000x128, .f32⟩
  | .hbm, ⟨45, _⟩ => ⟨S10000x256, .f32⟩
  | .hbm, ⟨46, _⟩ => ⟨S10000x128, .f32⟩
  | .local _ .vmem, ⟨0, _⟩ => ⟨S2560x384, .f32⟩
  | .local _ .vmem, ⟨1, _⟩ => ⟨S2560x384, .f32⟩
  | .local _ .vmem, ⟨2, _⟩ => ⟨S384x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2560x128, .f32⟩
  | .local _ .vmem, ⟨7, _⟩ => ⟨S2560x128, .f32⟩
  | .local _ .vmem, ⟨8, _⟩ => ⟨S2000x256, .f32⟩
  | .local _ .vmem, ⟨9, _⟩ => ⟨S2000x256, .f32⟩
  | .local _ .vmem, ⟨10, _⟩ => ⟨S2000x128, .f32⟩
  | .local _ .vmem, ⟨11, _⟩ => ⟨S2000x128, .f32⟩
  | .local _ .vmem, ⟨12, _⟩ => ⟨S256x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_call0_v0 : Ref sig .tc := ⟨.hbm, 35, rfl⟩
abbrev main_v19 : Ref sig .tc := ⟨.hbm, 36, rfl⟩
abbrev main_c_4 : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  pads_S640000x257_S640000x384_000_01270 : S640000x257.Pads (![0, 0] : Fin 2 → Nat) ![0, 127] ![0, 0] S640000x384
  h_S_ : 0 < S_.numel
  pads_S257x128_S384x128_01270_000 : S257x128.Pads (![0, 0] : Fin 2 → Nat) ![127, 0] ![0, 0] S384x128
  inb_S2560x384_S2560x384_0_0 : ∀ a, (![0, 0] : Fin 2 → Nat) a + S2560x384.size a ≤ S2560x384.size a
  h_S2560x384 : 0 < S2560x384.numel
  shapeCasts_S2560x384_S2560x384 : S2560x384.ShapeCasts S2560x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S1x128 : S128.ShapeCasts S1x128
  broadcasts_S1x128_S2560x128 : S1x128.Broadcasts S2560x128
  inb_S128x128_S128x128_0_0 : ∀ a, (![0, 0] : Fin 2 → Nat) a + S128x128.size a ≤ S128x128.size a
  h_S128x128 : 0 < S128x128.numel
  inb_S2560x128_S2560x128_0_0 : ∀ a, (![0, 0] : Fin 2 → Nat) a + S2560x128.size a ≤ S2560x128.size a
  h_S2560x128 : 0 < S2560x128.numel
  bcast_S_S10000x128 : S_.BroadcastsInDim S10000x128 (![] : Fin 0 → Fin S10000x128.rank)
  concatenates_S10000x128_S10000x128_S10000x256_d1 : Shape.Concatenates [S10000x128, S10000x128] S10000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S10000x128_S640000x1_S640000x128_1_0_n_n_0_1_1128_wf : GatherDims.WF S10000x128 S640000x1 S640000x128 [1] [0] [] [0] [] 1 ![1, 128]
  dot_S2560x384_S384x128_S2560x128_1_0_0_1_n_n_wf : DotDims.WF S2560x384 S384x128 S2560x128 [1] [0] [0] [1] [] []
  dot_S2560x128_S128x128_S2560x128_1_0_0_1_n_n_wf : DotDims.WF S2560x128 S128x128 S2560x128 [1] [0] [0] [1] [] []
  scatter_S10000x128_S640000x1_S640000x128_1_0_0_1_wf : ScatterDims.WF S10000x128 S640000x1 S640000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x384.size a ≤ S640000x384.size a
  hwx0_0 : ∀ i : grid0.Coords, EltTy.bits .f32 = 32 ∨ (Rect.block (s := S640000x384) S2560x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2560x128.size a ≤ S640000x128.size a
  hwx0_5 : ∀ i : grid0.Coords, EltTy.bits .f32 = 32 ∨ (Rect.block (s := S640000x128) S2560x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S10000x128.size a
  hwx1_6 : ∀ i : grid1.Coords, EltTy.bits .f32 = 32 ∨ (Rect.block (s := S10000x128) S2000x128.size (cc1_transform_6 i) (hinb1_6 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S2560x384_S384x128_S2560x128_1_0_0_1_n_n : DotDims S2560x384 S384x128 S2560x128 where
  lhsContracting := [1]
  rhsContracting := [0]
  lhsNonContracting := [0]
  rhsNonContracting := [1]
  lhsBatch := []
  rhsBatch := []
  wf := dot_S2560x384_S384x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v19) S2560x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2560x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S640000x257 : Shape := ⟨2, ![640000, 257]⟩
abbrev S1x128 : Shape := ⟨2, ![1, 128]⟩
abbrev S10000x256 : Shape := ⟨2, ![10000, 256]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x1, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x257, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S10000x128, .f32⟩
  | .hbm, ⟨47, _⟩ => ⟨S640000x1, .i32⟩
  | .hbm, ⟨48, _⟩ => ⟨S10000x128, .f32⟩
  | .hbm, ⟨49, _⟩ => ⟨S10000x256, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KMsg.lean ====
/-
  The message kernel's region, seen from any contents `V` of the core's buffers at the moment the region is entered.

  The grid has 250 points; at point `t` the kernel is handed rows 2560·t … 2560·t + 2559 of the padded edge-feature array
  (2560 × 384), the whole first-layer weights (384 × 128), bias (128), second-layer weights (128 × 128) and bias (128),
  and a 2560 × 128 output buffer.  The body loads the five inputs whole, computes one value from them (the two-layer
  perceptron of every row) and stores it over the whole output buffer; it also loads the output buffer once before the
  store, and does nothing with what it read.  So after the body the inputs' buffers hold what they held and the output's
  buffer holds that one value, whatever it held before: `blockOut`.  From this follow the facts the pipeline's launch
  asks of a kernel: what every staging buffer holds after the body at every point (`dat`), that an input's buffer holds its
  block at every point whether or not it was fetched there (an unfetched window's block index has not moved), and the
  body's triple at every point (`body_obligation`).
-/
import proofs.«166899_j16939351015861_1_alg».proof.Proof.Gen.Kernel.Launch
import proofs.«166899_j16939351015861_1_alg».proof.Proof.Gen.Kernel.Skeleton
import proofs.«166899_j16939351015861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Msg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. One statement per input window. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S2560x384 := Rect.unit (s := S2560x384) ![0, 0] S2560x384.size inb_S2560x384_S2560x384_0_0
abbrev rW1 : Rect S384x128 := Rect.unit (s := S384x128) ![0, 0] S384x128.size inb_S384x128_S384x128_0_0
abbrev rB : Rect S128 := Rect.unit (s := S128) ![0] S128.size inb_S128_S128_0
abbrev rW2 : Rect S128x128 := Rect.unit (s := S128x128) ![0, 0] S128x128.size inb_S128x128_S128x128_0_0
abbrev rO : Rect S2560x128 := Rect.unit (s := S2560x128) ![0, 0] S2560x128.size inb_S2560x128_S2560x128_0_0

/-- The output buffer after the body, from the five input blocks: its one store, of the perceptron's value. -/
def blockOut (x0 : Vec F S2560x384 .f32) (x1 : Vec F S384x128 .f32) (x2 : Vec F S128 .f32) (x3 : Vec F S128x128 .f32) (x4 : Vec F S128 .f32) :
    Vec F S2560x128 .f32 :=
  View.canon [⟨rO, k0_pay1 (View.ld x0 rX) (View.ld x1 rW1) (View.ld x2 rB) (View.ld x3 rW2) (View.ld x4 rB)⟩]

/-- The one store covers the buffer. -/
theorem coverOut (p0 : Vec F S2560x128 .f32) (y : S2560x128.Idx) :
    ∃ pc ∈ ([⟨rO, p0⟩] : List (View.Piece (Elt F) S2560x128 .f32)), y ∈ pc.1.set :=
  View.cover_of_tiled [⟨rO, p0⟩] S2560x128.size (by rfl) y

/-! ## The body's triple -/

set_option maxHeartbeats 1000000 in
/-- The body on whole buffers, the inputs' at contents `x0 … x4` and the output's at anything, runs to the continuation
    holding the inputs' as they were and the output's at `blockOut` of them. -/
theorem sound_kernel (c : Dev nD) (E : Set ℕ) (i : grid0.Coords)
    (arg1 : Memref sig .tc .vmem S2560x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2560x128 .f32) (harg6 : arg6.IsWhole)
    (x0 : Vec F S2560x384 .f32) (x1 : Vec F S384x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The pipeline's proof data -/

/-- The proof data of the message pipeline on core `c`: the arrays as the region finds them; after the body at point
    `t` each input's buffer at its block and the output's at `blockOut` of the input blocks; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blockOut (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = blockOut (blk V c 0 t) (blk V c 1 t) (blk V c 2 t) (blk V c 3 t) (blk V c 4 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d
theorem before_3 (c : Dev nD) (t : Fin cfg0.N) (d) : (dat V c).before 3 t d = blk V c 3 t :=
  before_in3 V (dat V c) (A_eq V c 3) (after_3 V c) t d
theorem before_4 (c : Dev nD) (t : Fin cfg0.N) (d) : (dat V c).before 4 t d = blk V c 4 t :=
  before_in4 V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Msg

end
-- ==== Proof.KUpd.lean ====
/-
  The update kernel's region, seen from any contents `V` of the core's buffers at the moment the region is entered.

  The grid has 5 points; at point `t` the kernel is handed rows 2000·t … 2000·t + 1999 of the joined node array (node features
  beside the summed messages, 2000 × 256) and of the node features themselves (2000 × 128), the whole first-layer weights
  (256 × 128), bias (128), second-layer weights (128 × 128) and bias (128), and a 2000 × 128 output buffer.  The body loads
  the six inputs whole, computes one value from them (each node's features plus the two-layer perceptron of its joined row)
  and stores it over the whole output buffer; it also loads the output buffer once before the store and does nothing with
  what it read.  So after the body the inputs' buffers hold what they held and the output's holds that one value:
  `blockOut`.  From this follow what the pipeline's launch asks of a kernel (`dat`, the inputs' buffers at their blocks at every
  point, `body_obligation`).
-/
import proofs.«166899_j16939351015861_1_alg».proof.Proof.Gen.Kernel.Launch
import proofs.«166899_j16939351015861_1_alg».proof.Proof.Gen.Kernel.Skeleton
import proofs.«166899_j16939351015861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Upd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. One statement per input window. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S2000x256 := Rect.unit (s := S2000x256) ![0, 0] S2000x256.size inb_S2000x256_S2000x256_0_0
abbrev rH : Rect S2000x128 := Rect.unit (s := S2000x128) ![0, 0] S2000x128.size inb_S2000x128_S2000x128_0_0
abbrev rW1 : Rect S256x128 := Rect.unit (s := S256x128) ![0, 0] S256x128.size inb_S256x128_S256x128_0_0
abbrev rB : Rect S128 := Rect.unit (s := S128) ![0] S128.size inb_S128_S128_0
abbrev rW2 : Rect S128x128 := Rect.unit (s := S128x128) ![0, 0] S128x128.size inb_S128x128_S128x128_0_0

/-- The output buffer after the body, from the six input blocks (in the windows' order: joined rows, node features,
    first weights, first bias, second weights, second bias): its one store. -/
def blockOut (x0 : Vec F S2000x256 .f32) (x1 : Vec F S2000x128 .f32) (x2 : Vec F S256x128 .f32) (x3 : Vec F S128 .f32)
    (x4 : Vec F S128x128 .f32) (x5 : Vec F S128 .f32) : Vec F S2000x128 .f32 :=
  View.canon [⟨rH, k1_pay1 (View.ld x0 rX) (View.ld x2 rW1) (View.ld x3 rB) (View.ld x4 rW2) (View.ld x5 rB) (View.ld x1 rH)⟩]

/-- The one store covers the buffer. -/
theorem coverOut (p0 : Vec F S2000x128 .f32) (y : S2000x128.Idx) :
    ∃ pc ∈ ([⟨rH, p0⟩] : List (View.Piece (Elt F) S2000x128 .f32)), y ∈ pc.1.set :=
  View.cover_of_tiled [⟨rH, p0⟩] S2000x128.size (by rfl) y

/-! ## The body's triple -/

set_option maxHeartbeats 1000000 in
/-- The body on whole buffers, the inputs' at contents `x0 … x5` and the output's at anything, runs to the continuation
    holding the inputs' as they were and the output's at `blockOut` of them. -/
theorem sound_kernel (c : Dev nD) (E : Set ℕ) (i : grid1.Coords)
    (arg1 : Memref sig .tc .vmem S2000x256 .f32) (harg1 : arg1.IsWhole) (arg2 : Memref sig .tc .vmem S2000x128 .f32) (harg2 : arg2.IsWhole)
    (arg3 : Memref sig .tc .vmem S256x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S2000x128 .f32) (harg7 : arg7.IsWhole)
    (x0 : Vec F S2000x256 .f32) (x1 : Vec F S2000x128 .f32) (x2 : Vec F S256x128 .f32) (x3 : Vec F S128 .f32) (x4 : Vec F S128x128 .f32) (x5 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (blockOut x0 x1 x2 x3 x4 x5)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-! ## The pipeline's proof data -/

/-- The proof data of the update pipeline on core `c`: the arrays as the region finds them; after the body at point
    `t` each input's buffer at its block and the output's at `blockOut` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blockOut (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) :
    (dat V c).after 6 t = blockOut (blk V c 0 t) (blk V c 1 t) (blk V c 2 t) (blk V c 3 t) (blk V c 4 t) (blk V c 5 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d
theorem before_3 (c : Dev nD) (t : Fin cfg1.N) (d) : (dat V c).before 3 t d = blk V c 3 t :=
  before_in3 V (dat V c) (A_eq V c 3) (after_3 V c) t d
theorem before_4 (c : Dev nD) (t : Fin cfg1.N) (d) : (dat V c).before 4 t d = blk V c 4 t :=
  before_in4 V (dat V c) (A_eq V c 4) (after_4 V c) t d
theorem before_5 (c : Dev nD) (t : Fin cfg1.N) (d) : (dat V c).before 5 t d = blk V c 5 t :=
  before_in5 V (dat V c) (A_eq V c 5) (after_5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.Kernel.Upd

end
-- ==== Proof.KRun.lean ====
/-
  The whole program as a run of seven segments, from the launch to the return: a stretch of array operations (the index
  normalisation, the two row gathers, the join), the padding of the joined rows (a called function's two operations), one
  constant, the padding of the first weights (again a called function), the message kernel's region, a second stretch (the
  zero array, the scatter-add of the messages into the nodes, the join with the node features) and the update kernel's
  region.

  The contents of the core's buffers at each boundary are a fold from the launch memory: a stretch leaves what its
  operations compute, one after the other (`StableHlo.after`); a region leaves its input arrays as it found them and its
  output array at what the write-backs of all grid points leave, and touches nothing else.  Since no stretch writes an
  argument and no region writes one, every argument's buffer walks back through the fold to the launch memory (`end_arg`),
  which is the frame claim; and the program's result is the update region's output array at the fold's end (`end_out`),
  which a value claim reads further.
-/
import proofs.«166899_j16939351015861_1_alg».proof.Proof.KMsg
import proofs.«166899_j16939351015861_1_alg».proof.Proof.KUpd
import proofs.«166899_j16939351015861_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (index normalisation, gathers, join). -/
abbrev W1 : Dev nD → Valuation τ sig (Elt F) := fun c => StableHlo.after hostOps0 (W0 m ρ c)
/-- After the padding of the joined rows. -/
abbrev W2 : Dev nD → Valuation τ sig (Elt F) := fun c => StableHlo.after hostOps0_1 (W1 m ρ c)
/-- After the one constant. -/
abbrev W3 : Dev nD → Valuation τ sig (Elt F) := fun c => StableHlo.after hostOps0_2 (W2 m ρ c)
/-- After the padding of the first weights: the message region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- At the message region's exit: its arrays at what the pipeline leaves, every other buffer as entered. -/
def W5 (c : Dev nD) : Valuation τ sig (Elt F) :=
  Pipeline.withArrays spec0 c (W4 m ρ c) fun w => (Msg.dat (V4 m ρ) c).arrAt w cfg0.N
theorem W5_arr (c : Dev nD) (w : Fin cfg0.W) :
    W5 m ρ c (Proc.devRef .tc (Pipeline.arrRef spec0 w)) = (Msg.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem exit0_arr (c : Dev nD) (w : Fin cfg0.W) : (Msg.dat (V4 m ρ) c).arrAt w cfg0.N = V5 m ρ c (Pipeline.arrRef spec0 w) :=
  (W5_arr m ρ c w).symm
theorem exit0_rest (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the second stretch (zero array, scatter-add, join): the update region's entry. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- At the update region's exit: its arrays at what the pipeline leaves, every other buffer as entered. -/
def W7 (c : Dev nD) : Valuation τ sig (Elt F) :=
  Pipeline.withArrays spec1 c (W6 m ρ c) fun w => (Upd.dat (V6 m ρ) c).arrAt w cfg1.N
theorem W7_arr (c : Dev nD) (w : Fin cfg1.W) :
    W7 m ρ c (Proc.devRef .tc (Pipeline.arrRef spec1 w)) = (Upd.dat (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem exit1_arr (c : Dev nD) (w : Fin cfg1.W) : (Upd.dat (V6 m ρ) c).arrAt w cfg1.N = V7 m ρ c (Pipeline.arrRef spec1 w) :=
  (W7_arr m ρ c w).symm
theorem exit1_rest (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## A buffer no segment writes ends as launched -/

/-- The message region leaves every buffer but its output array as it found it: an input window's array by the
    pipeline's own account of an input (never written back), any other buffer untouched. -/
theorem W5_keep (c : Dev nD) (b : Ref sig .tc) (hb : b ≠ main_v21) :
    W5 m ρ c (Proc.devRef .tc b) = W4 m ρ c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W5_arr m ρ c w).trans (((Msg.dat (V4 m ρ) c).arrAt_in w hin _).trans (Msg.A_eq (V4 m ρ) c w))
  · exact W5_of_ne m ρ c b fun w e => h ⟨w, e⟩

/-- The update region likewise. -/
theorem W7_keep (c : Dev nD) (b : Ref sig .tc) (hb : b ≠ main_v26) :
    W7 m ρ c (Proc.devRef .tc b) = W6 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W7_arr m ρ c w).trans (((Upd.dat (V6 m ρ) c).arrAt_in w hin _).trans (Upd.A_eq (V6 m ρ) c w))
  · exact W7_of_ne m ρ c b fun w e => h ⟨w, e⟩

/-- A buffer that no stretch writes and that is neither region's output array holds at the end what it held at launch. -/
theorem end_kept (c : Dev nD) (b : Ref sig .tc) (h0 : b ∉ hostOps0_W) (h1 : b ∉ hostOps0_1_W) (h2 : b ∉ hostOps0_2_W)
    (h3 : b ∉ hostOps0_3_W) (h4 : b ≠ main_v21) (h5 : b ∉ hostOps1_W) (h6 : b ≠ main_v26) :
    W7 m ρ c (Proc.devRef .tc b) = m ((c : Thread nD τ).loc b) :=
  calc W7 m ρ c (Proc.devRef .tc b)
    _ = W6 m ρ c (Proc.devRef .tc b) := W7_keep m ρ c b h6
    _ = W5 m ρ c (Proc.devRef .tc b) := StableHlo.after_of_writes_sub hostOps1 _ hostOps1_writes h5
    _ = W4 m ρ c (Proc.devRef .tc b) := W5_keep m ρ c b h4
    _ = W3 m ρ c (Proc.devRef .tc b) := StableHlo.after_of_writes_sub hostOps0_3 _ hostOps0_3_writes h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

/-- The program's result buffer holds at the end the update region's output array after all grid points. -/
theorem end_out (c : Dev nD) : W7 m ρ c (Proc.devRef .tc main_v26) = (Upd.dat (V6 m ρ) c).arrAt 6 cfg1.N :=
  W7_arr m ρ c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Msg.dat (V4 m ρ) c
  | ⟨1, _⟩ => fun c => Upd.dat (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of array operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The message region over the thread state: entered from every unscoped buffer at `W4`, left at `W5`. Its arrays are
    split out of the unscoped buffers and put back at the exit contents; the generator register goes into the kernel
    class's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update region over the thread state: entered from every unscoped buffer at `W6`, left at `W7`, which is what
    the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Upd.body_obligation (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The seven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ) ]

set_option backward.isDefEq.respectTransparency.types false in
/-- THE RUN. From any memory with zero counters every weakly fair execution of the program on the TensorCores
    terminates, nothing faulting, and in every final state each unscoped buffer of each core holds the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- What the run leaves in an unscoped buffer named by a TensorCore reference. -/
theorem run_at (b : Ref sig .tc) (hb : ¬ (Proc.devRef .tc b : DevRef τ sig).isScoped) {r : PUnit × MemSt nD τ sig (Elt F)}
    (h : ∀ c : Dev nD, ∀ b ∈ Pipeline.ucRefs τ sig, r.2.mem (((c : Thread nD τ)).1, b) = W7 m ρ c b) (c : Dev nD) :
    r.2.mem ((c.tc : Thread nD τ).loc b) = W7 m ρ c (Proc.devRef .tc b) :=
  h c _ (mem_uc b hb)

end Cert.Kernel.Run

end
-- ==== Proof.KFrame.lean ====
/-
  The frame claim of the program, read off its run: the run ends with every unscoped buffer at the last boundary's
  contents, and an argument's buffer there holds what it held at launch, since no stretch of array operations writes an
  argument and each region writes only its own output array.
-/
import proofs.«166899_j16939351015861_1_alg».proof.Proof.KRun

noncomputable section

namespace Cert.Kernel.Run

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- An unscoped buffer that no segment writes is, in every final state of the run, as launched. -/
theorem arg_end (b : Ref sig .tc) (hb : ¬ (Proc.devRef .tc b : DevRef τ sig).isScoped)
    (h0 : b ∉ hostOps0_W) (h1 : b ∉ hostOps0_1_W) (h2 : b ∉ hostOps0_2_W) (h3 : b ∉ hostOps0_3_W) (h4 : b ≠ main_v21)
    (h5 : b ∉ hostOps1_W) (h6 : b ≠ main_v26) {r : PUnit × MemSt nD τ sig (Elt F)}
    (h : ∀ c : Dev nD, ∀ b ∈ Pipeline.ucRefs τ sig, r.2.mem (((c : Thread nD τ)).1, b) = W7 m ρ c b) (c : Dev nD) :
    r.2.mem ((c.tc : Thread nD τ).loc b) = m ((c.tc : Thread nD τ).loc b) :=
  (run_at m ρ b hb h c).trans (end_kept m ρ c b h0 h1 h2 h3 h4 h5 h6)

/-- THE FRAME: every weakly fair execution terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨arg_end m ρ main_arg0 (by decide) (by decide) (by decide) (by decide) (by decide) (by decide) (by decide) (by decide) h c,
      arg_end m ρ main_arg1 (by decide) (by decide) (by decide) (by decide) (by decide) (by decide) (by decide) (by decide) h c,
      arg_end m ρ main_arg2 (by decide) (by decide) (by decide) (by decide) (by decide) (by decide) (by decide) (by decide) h c,
      arg_end m ρ main_arg3 (by decide) (by decide) (by decide) (by decide) (by decide) (by decide) (by decide) (by decide) h c,
      arg_end m ρ main_arg4 (by decide) (by decide) (by decide) (by decide) (by decide) (by decide) (by decide) (by decide) h c,
      arg_end m ρ main_arg5 (by decide) (by decide) (by decide) (by decide) (by decide) (by decide) (by decide) (by decide) h c,
      arg_end m ρ main_arg6 (by decide) (by decide) (by decide) (by decide) (by decide) (by decide) (by decide) (by decide) h c,
      arg_end m ρ main_arg7 (by decide) (by decide) (by decide) (by decide) (by decide) (by decide) (by decide) (by decide) h c,
      arg_end m ρ main_arg8 (by decide) (by decide) (by decide) (by decide) (by decide) (by decide) (by decide) (by decide) h c,
      arg_end m ρ main_arg9 (by decide) (by decide) (by decide) (by decide) (by decide) (by decide) (by decide) (by decide) h c,
      arg_end m ρ main_arg10 (by decide) (by decide) (by decide) (by decide) (by decide) (by decide) (by decide) (by decide) h c⟩)
    (run_all m ρ)

end Cert.Kernel.Run

end
-- ==== Proof.KIMsg.lean ====
/-
  The message kernel's region, seen from any contents `V` of the core's buffers at the moment the region is entered.

  The grid has 250 points; at point `t` the kernel is handed rows 2560·t … 2560·t + 2559 of the padded edge-feature array
  (2560 × 384), the whole first-layer weights (384 × 128), bias (128), second-layer weights (128 × 128) and bias (128),
  and a 2560 × 128 output buffer.  The body loads the five inputs whole, computes one value from them (the two-layer
  perceptron of every row) and stores it over the whole output buffer; it also loads the output buffer once before the
  store, and does nothing with what it read.  So after the body the inputs' buffers hold what they held and the output's
  buffer holds that one value, whatever it held before: `blockOut`.  From this follow the facts the pipeline's launch
  asks of a kernel: what every staging buffer holds after the body at every point (`dat`), that an input's buffer holds its
  block at every point whether or not it was fetched there (an unfetched window's block index has not moved), and the
  body's triple at every point (`body_obligation`).
-/
import proofs.«166899_j16939351015861_1_alg».proof.Proof.Gen.KernelIdeal.Launch
import proofs.«166899_j16939351015861_1_alg».proof.Proof.Gen.KernelIdeal.Skeleton
import proofs.«166899_j16939351015861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Msg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. One statement per input window. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S2560x384 := Rect.unit (s := S2560x384) ![0, 0] S2560x384.size inb_S2560x384_S2560x384_0_0
abbrev rW1 : Rect S384x128 := Rect.unit (s := S384x128) ![0, 0] S384x128.size inb_S384x128_S384x128_0_0
abbrev rB : Rect S128 := Rect.unit (s := S128) ![0] S128.size inb_S128_S128_0
abbrev rW2 : Rect S128x128 := Rect.unit (s := S128x128) ![0, 0] S128x128.size inb_S128x128_S128x128_0_0
abbrev rO : Rect S2560x128 := Rect.unit (s := S2560x128) ![0, 0] S2560x128.size inb_S2560x128_S2560x128_0_0

/-- The output buffer after the body, from the five input blocks: its one store, of the perceptron's value. -/
def blockOut (x0 : Vec F S2560x384 .f32) (x1 : Vec F S384x128 .f32) (x2 : Vec F S128 .f32) (x3 : Vec F S128x128 .f32) (x4 : Vec F S128 .f32) :
    Vec F S2560x128 .f32 :=
  View.canon [⟨rO, k0_pay1 (View.ld x0 rX) (View.ld x1 rW1) (View.ld x2 rB) (View.ld x3 rW2) (View.ld x4 rB)⟩]

/-- The one store covers the buffer. -/
theorem coverOut (p0 : Vec F S2560x128 .f32) (y : S2560x128.Idx) :
    ∃ pc ∈ ([⟨rO, p0⟩] : List (View.Piece (Elt F) S2560x128 .f32)), y ∈ pc.1.set :=
  View.cover_of_tiled [⟨rO, p0⟩] S2560x128.size (by rfl) y

/-! ## The body's triple -/

set_option maxHeartbeats 1000000 in
/-- The body on whole buffers, the inputs' at contents `x0 … x4` and the output's at anything, runs to the continuation
    holding the inputs' as they were and the output's at `blockOut` of them. -/
theorem sound_kernel (c : Dev nD) (E : Set ℕ) (i : grid0.Coords)
    (arg1 : Memref sig .tc .vmem S2560x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2560x128 .f32) (harg6 : arg6.IsWhole)
    (x0 : Vec F S2560x384 .f32) (x1 : Vec F S384x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The pipeline's proof data -/

/-- The proof data of the message pipeline on core `c`: the arrays as the region finds them; after the body at point
    `t` each input's buffer at its block and the output's at `blockOut` of the input blocks; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blockOut (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = blockOut (blk V c 0 t) (blk V c 1 t) (blk V c 2 t) (blk V c 3 t) (blk V c 4 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d
theorem before_3 (c : Dev nD) (t : Fin cfg0.N) (d) : (dat V c).before 3 t d = blk V c 3 t :=
  before_in3 V (dat V c) (A_eq V c 3) (after_3 V c) t d
theorem before_4 (c : Dev nD) (t : Fin cfg0.N) (d) : (dat V c).before 4 t d = blk V c 4 t :=
  before_in4 V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Msg

end
-- ==== Proof.KIUpd.lean ====
/-
  The update kernel's region, seen from any contents `V` of the core's buffers at the moment the region is entered.

  The grid has 5 points; at point `t` the kernel is handed rows 2000·t … 2000·t + 1999 of the joined node array (node features
  beside the summed messages, 2000 × 256) and of the node features themselves (2000 × 128), the whole first-layer weights
  (256 × 128), bias (128), second-layer weights (128 × 128) and bias (128), and a 2000 × 128 output buffer.  The body loads
  the six inputs whole, computes one value from them (each node's features plus the two-layer perceptron of its joined row)
  and stores it over the whole output buffer; it also loads the output buffer once before the store and does nothing with
  what it read.  So after the body the inputs' buffers hold what they held and the output's holds that one value:
  `blockOut`.  From this follow what the pipeline's launch asks of a kernel (`dat`, the inputs' buffers at their blocks at every
  point, `body_obligation`).
-/
import proofs.«166899_j16939351015861_1_alg».proof.Proof.Gen.KernelIdeal.Launch
import proofs.«166899_j16939351015861_1_alg».proof.Proof.Gen.KernelIdeal.Skeleton
import proofs.«166899_j16939351015861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Upd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. One statement per input window. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S2000x256 := Rect.unit (s := S2000x256) ![0, 0] S2000x256.size inb_S2000x256_S2000x256_0_0
abbrev rH : Rect S2000x128 := Rect.unit (s := S2000x128) ![0, 0] S2000x128.size inb_S2000x128_S2000x128_0_0
abbrev rW1 : Rect S256x128 := Rect.unit (s := S256x128) ![0, 0] S256x128.size inb_S256x128_S256x128_0_0
abbrev rB : Rect S128 := Rect.unit (s := S128) ![0] S128.size inb_S128_S128_0
abbrev rW2 : Rect S128x128 := Rect.unit (s := S128x128) ![0, 0] S128x128.size inb_S128x128_S128x128_0_0

/-- The output buffer after the body, from the six input blocks (in the windows' order: joined rows, node features,
    first weights, first bias, second weights, second bias): its one store. -/
def blockOut (x0 : Vec F S2000x256 .f32) (x1 : Vec F S2000x128 .f32) (x2 : Vec F S256x128 .f32) (x3 : Vec F S128 .f32)
    (x4 : Vec F S128x128 .f32) (x5 : Vec F S128 .f32) : Vec F S2000x128 .f32 :=
  View.canon [⟨rH, k1_pay1 (View.ld x0 rX) (View.ld x2 rW1) (View.ld x3 rB) (View.ld x4 rW2) (View.ld x5 rB) (View.ld x1 rH)⟩]

/-- The one store covers the buffer. -/
theorem coverOut (p0 : Vec F S2000x128 .f32) (y : S2000x128.Idx) :
    ∃ pc ∈ ([⟨rH, p0⟩] : List (View.Piece (Elt F) S2000x128 .f32)), y ∈ pc.1.set :=
  View.cover_of_tiled [⟨rH, p0⟩] S2000x128.size (by rfl) y

/-! ## The body's triple -/

set_option maxHeartbeats 1000000 in
/-- The body on whole buffers, the inputs' at contents `x0 … x5` and the output's at anything, runs to the continuation
    holding the inputs' as they were and the output's at `blockOut` of them. -/
theorem sound_kernel (c : Dev nD) (E : Set ℕ) (i : grid1.Coords)
    (arg1 : Memref sig .tc .vmem S2000x256 .f32) (harg1 : arg1.IsWhole) (arg2 : Memref sig .tc .vmem S2000x128 .f32) (harg2 : arg2.IsWhole)
    (arg3 : Memref sig .tc .vmem S256x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S2000x128 .f32) (harg7 : arg7.IsWhole)
    (x0 : Vec F S2000x256 .f32) (x1 : Vec F S2000x128 .f32) (x2 : Vec F S256x128 .f32) (x3 : Vec F S128 .f32) (x4 : Vec F S128x128 .f32) (x5 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (blockOut x0 x1 x2 x3 x4 x5)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-! ## The pipeline's proof data -/

/-- The proof data of the update pipeline on core `c`: the arrays as the region finds them; after the body at point
    `t` each input's buffer at its block and the output's at `blockOut` of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blockOut (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) :
    (dat V c).after 6 t = blockOut (blk V c 0 t) (blk V c 1 t) (blk V c 2 t) (blk V c 3 t) (blk V c 4 t) (blk V c 5 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d
theorem before_3 (c : Dev nD) (t : Fin cfg1.N) (d) : (dat V c).before 3 t d = blk V c 3 t :=
  before_in3 V (dat V c) (A_eq V c 3) (after_3 V c) t d
theorem before_4 (c : Dev nD) (t : Fin cfg1.N) (d) : (dat V c).before 4 t d = blk V c 4 t :=
  before_in4 V (dat V c) (A_eq V c 4) (after_4 V c) t d
theorem before_5 (c : Dev nD) (t : Fin cfg1.N) (d) : (dat V c).before 5 t d = blk V c 5 t :=
  before_in5 V (dat V c) (A_eq V c 5) (after_5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Upd

end
-- ==== Proof.KIRun.lean ====
/-
  The whole program as a run of seven segments, from the launch to the return: a stretch of array operations (the index
  normalisation, the two row gathers, the join), the padding of the joined rows (a called function's two operations), one
  constant, the padding of the first weights (again a called function), the message kernel's region, a second stretch (the
  zero array, the scatter-add of the messages into the nodes, the join with the node features) and the update kernel's
  region.

  The contents of the core's buffers at each boundary are a fold from the launch memory: a stretch leaves what its
  operations compute, one after the other (`StableHlo.after`); a region leaves its input arrays as it found them and its
  output array at what the write-backs of all grid points leave, and touches nothing else.  Since no stretch writes an
  argument and no region writes one, every argument's buffer walks back through the fold to the launch memory (`end_arg`),
  which is the frame claim; and the program's result is the update region's output array at the fold's end (`end_out`),
  which a value claim reads further.
-/
import proofs.«166899_j16939351015861_1_alg».proof.Proof.KIMsg
import proofs.«166899_j16939351015861_1_alg».proof.Proof.KIUpd
import proofs.«166899_j16939351015861_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (index normalisation, gathers, join). -/
abbrev W1 : Dev nD → Valuation τ sig (Elt F) := fun c => StableHlo.after hostOps0 (W0 m ρ c)
/-- After the padding of the joined rows. -/
abbrev W2 : Dev nD → Valuation τ sig (Elt F) := fun c => StableHlo.after hostOps0_1 (W1 m ρ c)
/-- After the one constant. -/
abbrev W3 : Dev nD → Valuation τ sig (Elt F) := fun c => StableHlo.after hostOps0_2 (W2 m ρ c)
/-- After the padding of the first weights: the message region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- At the message region's exit: its arrays at what the pipeline leaves, every other buffer as entered. -/
def W5 (c : Dev nD) : Valuation τ sig (Elt F) :=
  Pipeline.withArrays spec0 c (W4 m ρ c) fun w => (Msg.dat (V4 m ρ) c).arrAt w cfg0.N
theorem W5_arr (c : Dev nD) (w : Fin cfg0.W) :
    W5 m ρ c (Proc.devRef .tc (Pipeline.arrRef spec0 w)) = (Msg.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem exit0_arr (c : Dev nD) (w : Fin cfg0.W) : (Msg.dat (V4 m ρ) c).arrAt w cfg0.N = V5 m ρ c (Pipeline.arrRef spec0 w) :=
  (W5_arr m ρ c w).symm
theorem exit0_rest (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the second stretch (zero array, scatter-add, join): the update region's entry. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- At the update region's exit: its arrays at what the pipeline leaves, every other buffer as entered. -/
def W7 (c : Dev nD) : Valuation τ sig (Elt F) :=
  Pipeline.withArrays spec1 c (W6 m ρ c) fun w => (Upd.dat (V6 m ρ) c).arrAt w cfg1.N
theorem W7_arr (c : Dev nD) (w : Fin cfg1.W) :
    W7 m ρ c (Proc.devRef .tc (Pipeline.arrRef spec1 w)) = (Upd.dat (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem exit1_arr (c : Dev nD) (w : Fin cfg1.W) : (Upd.dat (V6 m ρ) c).arrAt w cfg1.N = V7 m ρ c (Pipeline.arrRef spec1 w) :=
  (W7_arr m ρ c w).symm
theorem exit1_rest (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## A buffer no segment writes ends as launched -/

/-- The message region leaves every buffer but its output array as it found it: an input window's array by the
    pipeline's own account of an input (never written back), any other buffer untouched. -/
theorem W5_keep (c : Dev nD) (b : Ref sig .tc) (hb : b ≠ main_v21) :
    W5 m ρ c (Proc.devRef .tc b) = W4 m ρ c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact (W5_arr m ρ c w).trans (((Msg.dat (V4 m ρ) c).arrAt_in w hin _).trans (Msg.A_eq (V4 m ρ) c w))
  · exact W5_of_ne m ρ c b fun w e => h ⟨w, e⟩

/-- The update region likewise. -/
theorem W7_keep (c : Dev nD) (b : Ref sig .tc) (hb : b ≠ main_v26) :
    W7 m ρ c (Proc.devRef .tc b) = W6 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W7_arr m ρ c w).trans (((Upd.dat (V6 m ρ) c).arrAt_in w hin _).trans (Upd.A_eq (V6 m ρ) c w))
  · exact W7_of_ne m ρ c b fun w e => h ⟨w, e⟩

/-- A buffer that no stretch writes and that is neither region's output array holds at the end what it held at launch. -/
theorem end_kept (c : Dev nD) (b : Ref sig .tc) (h0 : b ∉ hostOps0_W) (h1 : b ∉ hostOps0_1_W) (h2 : b ∉ hostOps0_2_W)
    (h3 : b ∉ hostOps0_3_W) (h4 : b ≠ main_v21) (h5 : b ∉ hostOps1_W) (h6 : b ≠ main_v26) :
    W7 m ρ c (Proc.devRef .tc b) = m ((c : Thread nD τ).loc b) :=
  calc W7 m ρ c (Proc.devRef .tc b)
    _ = W6 m ρ c (Proc.devRef .tc b) := W7_keep m ρ c b h6
    _ = W5 m ρ c (Proc.devRef .tc b) := StableHlo.after_of_writes_sub hostOps1 _ hostOps1_writes h5
    _ = W4 m ρ c (Proc.devRef .tc b) := W5_keep m ρ c b h4
    _ = W3 m ρ c (Proc.devRef .tc b) := StableHlo.after_of_writes_sub hostOps0_3 _ hostOps0_3_writes h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

/-- The program's result buffer holds at the end the update region's output array after all grid points. -/
theorem end_out (c : Dev nD) : W7 m ρ c (Proc.devRef .tc main_v26) = (Upd.dat (V6 m ρ) c).arrAt 6 cfg1.N :=
  W7_arr m ρ c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Msg.dat (V4 m ρ) c
  | ⟨1, _⟩ => fun c => Upd.dat (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of array operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The message region over the thread state: entered from every unscoped buffer at `W4`, left at `W5`. Its arrays are
    split out of the unscoped buffers and put back at the exit contents; the generator register goes into the kernel
    class's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update region over the thread state: entered from every unscoped buffer at `W6`, left at `W7`, which is what
    the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Upd.body_obligation (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The seven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ) ]

set_option backward.isDefEq.respectTransparency.types false in
/-- THE RUN. From any memory with zero counters every weakly fair execution of the program on the TensorCores
    terminates, nothing faulting, and in every final state each unscoped buffer of each core holds the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- What the run leaves in an unscoped buffer named by a TensorCore reference. -/
theorem run_at (b : Ref sig .tc) (hb : ¬ (Proc.devRef .tc b : DevRef τ sig).isScoped) {r : PUnit × MemSt nD τ sig (Elt F)}
    (h : ∀ c : Dev nD, ∀ b ∈ Pipeline.ucRefs τ sig, r.2.mem (((c : Thread nD τ)).1, b) = W7 m ρ c b) (c : Dev nD) :
    r.2.mem ((c.tc : Thread nD τ).loc b) = W7 m ρ c (Proc.devRef .tc b) :=
  h c _ (mem_uc b hb)

end Cert.KernelIdeal.Run

end
-- ==== Proof.KIFrame.lean ====
/-
  The frame claim of the program, read off its run: the run ends with every unscoped buffer at the last boundary's
  contents, and an argument's buffer there holds what it held at launch, since no stretch of array operations writes an
  argument and each region writes only its own output array.
-/
import proofs.«166899_j16939351015861_1_alg».proof.Proof.KIRun

noncomputable section

namespace Cert.KernelIdeal.Run

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- An unscoped buffer that no segment writes is, in every final state of the run, as launched. -/
theorem arg_end (b : Ref sig .tc) (hb : ¬ (Proc.devRef .tc b : DevRef τ sig).isScoped)
    (h0 : b ∉ hostOps0_W) (h1 : b ∉ hostOps0_1_W) (h2 : b ∉ hostOps0_2_W) (h3 : b ∉ hostOps0_3_W) (h4 : b ≠ main_v21)
    (h5 : b ∉ hostOps1_W) (h6 : b ≠ main_v26) {r : PUnit × MemSt nD τ sig (Elt F)}
    (h : ∀ c : Dev nD, ∀ b ∈ Pipeline.ucRefs τ sig, r.2.mem (((c : Thread nD τ)).1, b) = W7 m ρ c b) (c : Dev nD) :
    r.2.mem ((c.tc : Thread nD τ).loc b) = m ((c.tc : Thread nD τ).loc b) :=
  (run_at m ρ b hb h c).trans (end_kept m ρ c b h0 h1 h2 h3 h4 h5 h6)

/-- THE FRAME: every weakly fair execution terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨arg_end m ρ main_arg0 (by decide) (by decide) (by decide) (by decide) (by decide) (by decide) (by decide) (by decide) h c,
      arg_end m ρ main_arg1 (by decide) (by decide) (by decide) (by decide) (by decide) (by decide) (by decide) (by decide) h c,
      arg_end m ρ main_arg2 (by decide) (by decide) (by decide) (by decide) (by decide) (by decide) (by decide) (by decide) h c,
      arg_end m ρ main_arg3 (by decide) (by decide) (by decide) (by decide) (by decide) (by decide) (by decide) (by decide) h c,
      arg_end m ρ main_arg4 (by decide) (by decide) (by decide) (by decide) (by decide) (by decide) (by decide) (by decide) h c,
      arg_end m ρ main_arg5 (by decide) (by decide) (by decide) (by decide) (by decide) (by decide) (by decide) (by decide) h c,
      arg_end m ρ main_arg6 (by decide) (by decide) (by decide) (by decide) (by decide) (by decide) (by decide) (by decide) h c,
      arg_end m ρ main_arg7 (by decide) (by decide) (by decide) (by decide) (by decide) (by decide) (by decide) (by decide) h c,
      arg_end m ρ main_arg8 (by decide) (by decide) (by decide) (by decide) (by decide) (by decide) (by decide) (by decide) h c,
      arg_end m ρ main_arg9 (by decide) (by decide) (by decide) (by decide) (by decide) (by decide) (by decide) (by decide) h c,
      arg_end m ρ main_arg10 (by decide) (by decide) (by decide) (by decide) (by decide) (by decide) (by decide) (by decide) h c⟩)
    (run_all m ρ)

end Cert.KernelIdeal.Run

end
-- ==== Proof.Spec.lean ====
/-
  The arithmetic both programs share, stated once over plain index functions on the extended reals.

  A node-update layer of a message-passing network applies the same small network twice: to every edge's joined
  feature row (sender's features, receiver's features, the edge's own scalar) to make a message, and to every node's
  joined row (its features, the sum of the messages it receives) to make an update that is added to the node's features.
  That small network is a perceptron of two layers with a ramp between them: for an input row `x` of `K` entries,
  lane `n` of the result is  Σ_k max(Σ_j x_j·w1_{j,k} + b1_k, 0)·w2_{k,n} + b2_n  over the 128 hidden lanes `k`.
-/
import Idealize.ShloMosaic.PureOps.Ideal
import Idealize.ShloMosaic.Lib.ValueIdx

noncomputable section

namespace Cert.Spec

open scoped BigOperators

/-- Lane `n` of the two-layer perceptron applied to the input row `x` (`K` entries, 128 hidden lanes, a ramp between
    the layers), on the extended reals. -/
def mlp {K : ℕ} (x : Fin K → EReal) (w1 : Fin K → Fin 128 → EReal) (b1 : Fin 128 → EReal)
    (w2 : Fin 128 → Fin 128 → EReal) (b2 : Fin 128 → EReal) (n : Fin 128) : EReal :=
  (∑ k : Fin 128, max ((∑ j : Fin K, x j * w1 j k) + b1 k) 0 * w2 k n) + b2 n

end Cert.Spec

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KPay.lean ====
/-
  The value each of the two kernel bodies stores, read at one entry, at the ideal values.

  Both bodies compute the same thing on their block: the rows of the block times the first weight matrix, accumulated
  into zero, plus the first bias row; the ramp (maximum with zero); the result times the second weight matrix,
  accumulated into zero, plus the second bias row (and, for the update kernel, the node's own features added on top).
  At the ideal values every narrowing to the short format is the identity, every product of matrices into the zero
  splat is the plain sum of products over the contracted coordinate, a bias row cast to one row and broadcast over the
  block reads its own lane, and the zero literal is the extended real 0.  So entry (r, n) of the stored value is lane n
  of the two-layer perceptron applied to row r of the block.  The statement is proved once for a block of any number
  of rows and any input width, and instantiated at the two bodies' sizes.
-/
import proofs.«166899_j16939351015861_1_alg».proof.Proof.Gen.KernelIdeal.Skeleton
import proofs.«166899_j16939351015861_1_alg».proof.Proof.Spec
import proofs.«166899_j16939351015861_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- A bias vector cast to one row and broadcast over `a` rows reads, at `(p, c)`, the vector's lane `c`. -/
theorem biasRow_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- One affine layer at entry `(r, n)`: the product accumulated into the zero splat plus the bias row is the sum of
    products over the contracted coordinate plus the bias lane. -/
theorem layer_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂)
    (v : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (n : Fin N) :
    addf (matmul D none A B (constant (F := Ideal) ⟨2, ![M, N]⟩ .f32 0x00000000#32))
        (broadcastTo ⟨2, ![M, N]⟩ (shapeCast ⟨2, ![1, N]⟩ v h1) h2) (ix2 r n)
      = (∑ c : Fin K, A (ix2 r c) * B (ix2 c n)) + v (ix1 n) :=
  (addf_apply _ _ _).trans
    (congrArg₂ (· + ·) (Cert.LibPlainDot.matmul_plain_zero_apply D hD none A B r n) (biasRow_apply v h1 h2 r n))

/-- The hidden layer at entry `(r, c)`: the first affine layer of the narrowed operands, then the ramp. -/
theorem hidden_apply {M K : ℕ} (D1 : DotDims ⟨2, ![M, K]⟩ ⟨2, ![K, 128]⟩ ⟨2, ![M, 128]⟩)
    (hD1 : D1 = DotDims.plain M K 128)
    (x0 : FVec Ideal ⟨2, ![M, K]⟩ .f32) (x1 : FVec Ideal ⟨2, ![K, 128]⟩ .f32) (x2 : FVec Ideal ⟨1, ![128]⟩ .f32)
    (hb : FTy.bits .bf16 < FTy.bits .f32) (h1 : (⟨1, ![128]⟩ : Shape).ShapeCasts ⟨2, ![1, 128]⟩)
    (h2 : (⟨2, ![1, 128]⟩ : Shape).Broadcasts ⟨2, ![M, 128]⟩) (r : Fin M) (c : Fin 128) :
    truncf .bf16 (maximumf
        (addf (matmul D1 none (truncf .bf16 x0 hb) (truncf .bf16 x1 hb)
            (constant (F := Ideal) ⟨2, ![M, 128]⟩ .f32 0x00000000#32))
          (broadcastTo ⟨2, ![M, 128]⟩ (shapeCast ⟨2, ![1, 128]⟩ x2 h1) h2))
        (broadcast ⟨2, ![M, 128]⟩ (Scalar.ofBits (F := Ideal) .f32 0x00000000#32))) hb (ix2 r c)
      = max ((∑ j : Fin K, x0 (ix2 r j) * x1 (ix2 j c)) + x2 (ix1 c)) 0 :=
  congrArg₂ max (layer_apply D1 hD1 (truncf .bf16 x0 hb) (truncf .bf16 x1 hb) x2 h1 h2 r c) Ideal.ofBits_zero_f32

/-- The whole block body at entry `(r, n)`: lane `n` of the two-layer perceptron applied to row `r`. -/
theorem body_apply {M K : ℕ} (D1 : DotDims ⟨2, ![M, K]⟩ ⟨2, ![K, 128]⟩ ⟨2, ![M, 128]⟩)
    (hD1 : D1 = DotDims.plain M K 128) (D2 : DotDims ⟨2, ![M, 128]⟩ ⟨2, ![128, 128]⟩ ⟨2, ![M, 128]⟩)
    (hD2 : D2 = DotDims.plain M 128 128)
    (x0 : FVec Ideal ⟨2, ![M, K]⟩ .f32) (x1 : FVec Ideal ⟨2, ![K, 128]⟩ .f32) (x2 : FVec Ideal ⟨1, ![128]⟩ .f32)
    (x3 : FVec Ideal ⟨2, ![128, 128]⟩ .f32) (x4 : FVec Ideal ⟨1, ![128]⟩ .f32)
    (hb : FTy.bits .bf16 < FTy.bits .f32) (h1 : (⟨1, ![128]⟩ : Shape).ShapeCasts ⟨2, ![1, 128]⟩)
    (h2 : (⟨2, ![1, 128]⟩ : Shape).Broadcasts ⟨2, ![M, 128]⟩) (r : Fin M) (n : Fin 128) :
    addf (matmul D2 none
          (truncf .bf16 (maximumf
            (addf (matmul D1 none (truncf .bf16 x0 hb) (truncf .bf16 x1 hb)
                (constant (F := Ideal) ⟨2, ![M, 128]⟩ .f32 0x00000000#32))
              (broadcastTo ⟨2, ![M, 128]⟩ (shapeCast ⟨2, ![1, 128]⟩ x2 h1) h2))
            (broadcast ⟨2, ![M, 128]⟩ (Scalar.ofBits (F := Ideal) .f32 0x00000000#32))) hb)
          (truncf .bf16 x3 hb) (constant (F := Ideal) ⟨2, ![M, 128]⟩ .f32 0x00000000#32))
        (broadcastTo ⟨2, ![M, 128]⟩ (shapeCast ⟨2, ![1, 128]⟩ x4 h1) h2) (ix2 r n)
      = Cert.Spec.mlp (fun j : Fin K => x0 (ix2 r j)) (fun j k => x1 (ix2 j k)) (fun k => x2 (ix1 k))
          (fun k n' => x3 (ix2 k n')) (fun n' => x4 (ix1 n')) n := by
  refine (layer_apply D2 hD2 _ (truncf .bf16 x3 hb) x4 h1 h2 r n).trans ?_
  unfold Cert.Spec.mlp
  refine congrArg (· + x4 (ix1 n)) (Finset.sum_congr rfl fun c _ => ?_)
  exact congrArg (· * x3 (ix2 c n)) (hidden_apply D1 hD1 x0 x1 x2 hb h1 h2 r c)

/-- The message kernel's stored value at entry `(r, n)`. -/
theorem pay0_apply (x0 : Vec Ideal S2560x384 .f32) (x1 : Vec Ideal S384x128 .f32) (x2 : Vec Ideal S128 .f32)
    (x3 : Vec Ideal S128x128 .f32) (x4 : Vec Ideal S128 .f32) (r : Fin 2560) (n : Fin 128) :
    k0_pay1 (F := Ideal) x0 x1 x2 x3 x4 (ix2 r n)
      = Cert.Spec.mlp (fun j : Fin 384 => x0 (ix2 r j)) (fun j k => x1 (ix2 j k)) (fun k => x2 (ix1 k))
          (fun k n' => x3 (ix2 k n')) (fun n' => x4 (ix1 n')) n := by
  unfold k0_pay1
  refine (body_apply (M := 2560) (K := 384) dot_S2560x384_S384x128_S2560x128_1_0_0_1_n_n rfl
    dot_S2560x128_S128x128_S2560x128_1_0_0_1_n_n rfl
    (shapeCast S2560x384 x0 shapeCasts_S2560x384_S2560x384) (shapeCast S384x128 x1 shapeCasts_S384x128_S384x128)
    x2 x3 x4 bitsLt_bf16_f32 shapeCasts_S128_S1x128 broadcasts_S1x128_S2560x128 r n).trans ?_
  rw [shapeCast_self, shapeCast_self]

/-- The update kernel's stored value at entry `(r, n)`: the node's own features plus the perceptron's lane. -/
theorem pay1_apply (x0 : Vec Ideal S2000x256 .f32) (x1 : Vec Ideal S256x128 .f32) (x2 : Vec Ideal S128 .f32)
    (x3 : Vec Ideal S128x128 .f32) (x4 : Vec Ideal S128 .f32) (x5 : Vec Ideal S2000x128 .f32)
    (r : Fin 2000) (n : Fin 128) :
    k1_pay1 (F := Ideal) x0 x1 x2 x3 x4 x5 (ix2 r n)
      = x5 (ix2 r n) + Cert.Spec.mlp (fun j : Fin 256 => x0 (ix2 r j)) (fun j k => x1 (ix2 j k)) (fun k => x2 (ix1 k))
          (fun k n' => x3 (ix2 k n')) (fun n' => x4 (ix1 n')) n := by
  unfold k1_pay1
  refine (addf_apply _ _ _).trans (congrArg (x5 (ix2 r n) + ·) ?_)
  refine (body_apply (M := 2000) (K := 256) dot_S2000x256_S256x128_S2000x128_1_0_0_1_n_n rfl
    dot_S2000x128_S128x128_S2000x128_1_0_0_1_n_n rfl
    (shapeCast S2000x256 x0 shapeCasts_S2000x256_S2000x256) x1
    x2 x3 x4 bitsLt_bf16_f32 shapeCasts_S128_S1x128 broadcasts_S1x128_S2000x128 r n).trans ?_
  rw [shapeCast_self]

end Cert.KernelIdeal.Pay

end
-- ==== Proof.KIMsgVal.lean ====
/-
  What the message region leaves in its output array, as one function of the arrays it reads.

  Grid point `t` is handed rows 2560·t … 2560·t + 2559 of the padded edge rows and writes back rows 2560·t … 2560·t + 2559
  of the messages; the weights and biases are handed whole at every point.  So row `r` of what point `t` writes back is the
  perceptron of row 2560·t + r of the padded edge rows: block `t` of ONE function of the whole arrays (`msgArr`).  The 250
  blocks cover the 640000 rows (row `e` lies in block `e / 2560`), hence after the last point the output array is that
  function everywhere.
-/
import proofs.«166899_j16939351015861_1_alg».proof.Proof.KIMsg
import proofs.«166899_j16939351015861_1_alg».proof.Proof.KPay
import proofs.«166899_j16939351015861_1_alg».proof.Proof.Spec
import Idealize.ShloMosaic.Lib.Pipeline.Value
import Idealize.ShloMosaic.Lib.ValueIdx

set_option maxRecDepth 16384

noncomputable section

namespace Cert.KernelIdeal.MsgVal

open Cert.KernelIdeal Cert.KernelIdeal.Gen
open Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The messages as one function of the padded edge rows, the padded first weights, and the remaining weights and biases:
    entry (e, n) is lane `n` of the perceptron of row `e`. -/
def msgArr (X : S640000x384.Idx → EReal) (W1 : S384x128.Idx → EReal) (b1 : S128.Idx → EReal) (W2 : S128x128.Idx → EReal)
    (b2 : S128.Idx → EReal) : S640000x128.Idx → EReal := fun i =>
  Cert.Spec.mlp (fun j : Fin 384 => X (ix2 (⟨(i 0).val, idx2_lt0 i⟩ : Fin 640000) j)) (fun j k => W1 (ix2 j k)) (fun k => b1 (ix1 k))
    (fun k n' => W2 (ix2 k n')) (fun n' => b2 (ix1 n')) (⟨(i 1).val, idx2_lt1 i⟩ : Fin 128)

/-- The printed index maps over the grid: the edge rows' and the output's block index is the point on the row axis and
    zero on the lane axis; the weights' and biases' are zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Where an element of point `t`'s block of the edge rows sits in the array. -/
theorem emb0 (t : Fin cfg0.N) (r : Fin 2560) (j : Fin 384) (h : t.val * 2560 + r.val < 640000) :
    ((cfg0.win 0).blk t).view.emb (ix2 r j) = ix2 (⟨t.val * 2560 + r.val, h⟩ : Fin 640000) j := by
  obtain ⟨e0, e1, -⟩ := idx_facts t
  funext a; apply Fin.ext
  match a with
  | ⟨0, _⟩ => show win0_0.index t (0 : Fin 2) * 2560 + 1 * r.val = t.val * 2560 + r.val; omega
  | ⟨1, _⟩ => show win0_0.index t (1 : Fin 2) * 384 + 1 * j.val = j.val; omega
/-- An element of the first weights' block sits where it is. -/
theorem emb1 (t : Fin cfg0.N) (j : Fin 384) (k : Fin 128) : ((cfg0.win 1).blk t).view.emb (ix2 j k) = ix2 j k := by
  obtain ⟨-, -, e0, e1, -⟩ := idx_facts t
  funext a; apply Fin.ext
  match a with
  | ⟨0, _⟩ => show win0_1.index t (0 : Fin 2) * 384 + 1 * j.val = j.val; omega
  | ⟨1, _⟩ => show win0_1.index t (1 : Fin 2) * 128 + 1 * k.val = k.val; omega
theorem emb2 (t : Fin cfg0.N) (k : Fin 128) : ((cfg0.win 2).blk t).view.emb (ix1 k) = ix1 k := by
  obtain ⟨-, -, -, -, e0, -⟩ := idx_facts t
  funext a; apply Fin.ext
  match a with
  | ⟨0, _⟩ => show win0_2.index t (0 : Fin 1) * 128 + 1 * k.val = k.val; omega
theorem emb3 (t : Fin cfg0.N) (k : Fin 128) (n : Fin 128) : ((cfg0.win 3).blk t).view.emb (ix2 k n) = ix2 k n := by
  obtain ⟨-, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * n.val = n.val; omega
theorem emb4 (t : Fin cfg0.N) (n : Fin 128) : ((cfg0.win 4).blk t).view.emb (ix1 n) = ix1 n := by
  obtain ⟨-, -, -, -, -, -, -, e0, -⟩ := idx_facts t
  funext a; apply Fin.ext
  match a with
  | ⟨0, _⟩ => show win0_4.index t (0 : Fin 1) * 128 + 1 * n.val = n.val; omega
/-- Where an element of point `t`'s block of the output sits in the array. -/
theorem emb5 (t : Fin cfg0.N) (r : Fin 2560) (n : Fin 128) (h : t.val * 2560 + r.val < 640000) :
    ((cfg0.win 5).blk t).view.emb (ix2 r n) = ix2 (⟨t.val * 2560 + r.val, h⟩ : Fin 640000) n := by
  obtain ⟨-, -, -, -, -, -, -, -, e0, e1⟩ := idx_facts t
  funext a; apply Fin.ext
  match a with
  | ⟨0, _⟩ => show win0_5.index t (0 : Fin 2) * 2560 + 1 * r.val = t.val * 2560 + r.val; omega
  | ⟨1, _⟩ => show win0_5.index t (1 : Fin 2) * 128 + 1 * n.val = n.val; omega

/-- WHAT POINT `t` WRITES BACK is block `t` of `msgArr` of the arrays as the region finds them. -/
theorem flushed_eq (c : Dev nD) (t : Fin cfg0.N) :
    (Msg.dat V c).flushed 5 t = ((cfg0.win 5).blk t).view.read (Elt Ideal)
      (msgArr (V c main_v19) (V c main_v20) (V c main_arg4) (V c main_arg5) (V c main_arg6)) := by
  show (cfg0.win 5).cut (grid0.coords t) ((Msg.dat V c).after 5 t) = _
  rw [Msg.after_5]
  unfold Msg.blockOut
  rw [View.canon_unit_zero hz2]
  simp only [View.ld_unit_zero (S := S2560x384) hz2, View.ld_unit_zero (S := S384x128) hz2, View.ld_unit_zero (S := S128) hz1,
    View.ld_unit_zero (S := S128x128) hz2]
  have hN : t.val < 250 := lt_of_lt_of_eq t.isLt N_0
  funext j
  obtain ⟨r, n, rfl⟩ : ∃ (r : Fin 2560) (n : Fin 128), j = ix2 r n := ⟨j 0, j 1, eq_ix2 j⟩
  have hr : t.val * 2560 + r.val < 640000 := by have := r.isLt; omega
  show k0_pay1 (F := Ideal) (Msg.blk V c 0 t) (Msg.blk V c 1 t) (Msg.blk V c 2 t) (Msg.blk V c 3 t) (Msg.blk V c 4 t) (ix2 r n)
    = msgArr (V c main_v19) (V c main_v20) (V c main_arg4) (V c main_arg5) (V c main_arg6) (((cfg0.win 5).blk t).view.emb (ix2 r n))
  rw [emb5 t r n hr]
  refine (Pay.pay0_apply _ _ _ _ _ r n).trans ?_
  unfold msgArr
  have hx : ∀ j : Fin 384, Msg.blk V c 0 t (ix2 r j) = V c main_v19 (ix2 (⟨t.val * 2560 + r.val, hr⟩ : Fin 640000) j) := fun j => by
    show V c main_v19 (((cfg0.win 0).blk t).view.emb (ix2 r j)) = _
    rw [emb0 t r j hr]
  have hw1 : ∀ (j : Fin 384) (k : Fin 128), Msg.blk V c 1 t (ix2 j k) = V c main_v20 (ix2 j k) := fun j k => by
    show V c main_v20 (((cfg0.win 1).blk t).view.emb (ix2 j k)) = _
    rw [emb1 t j k]
  have hb1 : ∀ k : Fin 128, Msg.blk V c 2 t (ix1 k) = V c main_arg4 (ix1 k) := fun k => by
    show V c main_arg4 (((cfg0.win 2).blk t).view.emb (ix1 k)) = _
    rw [emb2 t k]
  have hw2 : ∀ (k : Fin 128) (n' : Fin 128), Msg.blk V c 3 t (ix2 k n') = V c main_arg5 (ix2 k n') := fun k n' => by
    show V c main_arg5 (((cfg0.win 3).blk t).view.emb (ix2 k n')) = _
    rw [emb3 t k n']
  have hb2 : ∀ n' : Fin 128, Msg.blk V c 4 t (ix1 n') = V c main_arg6 (ix1 n') := fun n' => by
    show V c main_arg6 (((cfg0.win 4).blk t).view.emb (ix1 n')) = _
    rw [emb4 t n']
  simp only [hx, hw1, hb1, hw2, hb2]

/-- An index of the output array is in point `t`'s block iff each coordinate is in the block's range on its axis. -/
theorem mem_blk (t : Fin cfg0.N) (i : S640000x128.Idx) :
    i ∈ ((cfg0.win 5).blk t).view.set ↔ ∀ a : Fin 2, win0_5.index t a * S2560x128.size a ≤ (i a).val ∧ (i a).val < win0_5.index t a * S2560x128.size a + S2560x128.size a := by
  show i ∈ ((View.whole main_v21).slice (win0_5.rect t)).set ↔ _
  rw [View.set_slice_whole, Rect.mem_set_unit]
  exact Iff.rfl

/-- Every row of the output lies in some point's block: row `e` in block `e / 2560`. -/
theorem cover (i : S640000x128.Idx) : ∃ t : Fin cfg0.N, (cfg0.win 5).flush t = true ∧ i ∈ ((cfg0.win 5).blk t).view.set := by
  have hi0 : (i 0).val < 640000 := idx2_lt0 i
  have hi1 : (i 1).val < 128 := idx2_lt1 i
  have hN : cfg0.N = 250 := N_0
  let t : Fin cfg0.N := ⟨(i 0).val / 2560, by rw [hN]; omega⟩
  have ht : t.val = (i 0).val / 2560 := rfl
  obtain ⟨-, -, -, -, -, -, -, -, e0, e1⟩ := idx_facts t
  refine ⟨t, flush0_5 t, ?_⟩
  rw [mem_blk]
  intro a
  match a with
  | ⟨0, _⟩ => show win0_5.index t (0 : Fin 2) * 2560 ≤ (i 0).val ∧ (i 0).val < win0_5.index t (0 : Fin 2) * 2560 + 2560; omega
  | ⟨1, _⟩ => show win0_5.index t (1 : Fin 2) * 128 ≤ (i 1).val ∧ (i 1).val < win0_5.index t (1 : Fin 2) * 128 + 128; omega

/-- THE OUTPUT ARRAY after the last point is `msgArr` of the arrays as the region finds them. -/
theorem final (c : Dev nD) : (Msg.dat V c).arrAt 5 cfg0.N
    = msgArr (V c main_v19) (V c main_v20) (V c main_arg4) (V c main_arg5) (V c main_arg6) :=
  (Msg.dat V c).arrAt_eq_of_cover 5 _ (fun t _ => flushed_eq V c t) cover

end Cert.KernelIdeal.MsgVal

end
-- ==== Proof.KIUpdVal.lean ====
/-
  What the update region leaves in its output array, as one function of the arrays it reads.

  The region's grid has 5 points.  Point `t` is handed rows 2000·t … 2000·t + 1999 of the joined node rows (each node's
  features beside the sum of the messages it receives, 256 entries) and the same rows of the node features (128 entries);
  the two weight matrices and the two bias vectors are handed whole at every point; and it writes back rows
  2000·t … 2000·t + 1999 of the result.  Row `r` of what point `t` writes back is node 2000·t + r's features plus the
  perceptron of that node's joined row.  That is block `t` of ONE function of the whole arrays (`updArr`): entry (v, n) is
  H(v, n) + lane n of the perceptron of row v of X.  The 5 blocks cover the 10000 rows (row `v` lies in block `v / 2000`), so
  after the last point the output array is that function everywhere.
-/
import proofs.«166899_j16939351015861_1_alg».proof.Proof.KIUpd
import proofs.«166899_j16939351015861_1_alg».proof.Proof.KPay
import proofs.«166899_j16939351015861_1_alg».proof.Proof.Spec
import Idealize.ShloMosaic.Lib.Pipeline.Value
import Idealize.ShloMosaic.Lib.ValueIdx

set_option maxRecDepth 16384

noncomputable section

namespace Cert.KernelIdeal.UpdVal

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a rank-2 access, however spelt, are the constant zero. -/
theorem hz2 : (![0, 0] : Fin 2 → Nat) = fun _ => 0 := funext fun a => by fin_cases a <;> rfl
/-- The zero offset of a rank-1 access likewise. -/
theorem hz1 : (![0] : Fin 1 → Nat) = fun _ => 0 := funext fun a => by fin_cases a; rfl

/-- The updated node features as one function of the joined node rows `X`, the node features `H`, and the weights and
    biases: entry (v, n) is `H (v, n)` plus lane `n` of the perceptron of row `v` of `X`. -/
def updArr (X : S10000x256.Idx → EReal) (H : S10000x128.Idx → EReal) (W1 : S256x128.Idx → EReal) (b1 : S128.Idx → EReal) (W2 : S128x128.Idx → EReal) (b2 : S128.Idx → EReal) : S10000x128.Idx → EReal := fun i =>
  H (ix2 (⟨(i 0).val, idx2_lt0 i⟩ : Fin 10000) (⟨(i 1).val, idx2_lt1 i⟩ : Fin 128))
    + Cert.Spec.mlp (fun j : Fin 256 => X (ix2 (⟨(i 0).val, idx2_lt0 i⟩ : Fin 10000) j)) (fun j k => W1 (ix2 j k)) (fun k => b1 (ix1 k)) (fun k n' => W2 (ix2 k n')) (fun n' => b2 (ix1 n')) (⟨(i 1).val, idx2_lt1 i⟩ : Fin 128)

/-! ## The index maps over the grid -/

/-- The three windows cut by rows (joined rows, node features, output) take block `t` on the row axis and block 0 on
    the lane axis at point `t`. -/
theorem idxRows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_6.index t (0 : Fin 2) = t.val ∧ win1_6.index t (1 : Fin 2) = 0) :=
  (by decide +kernel : ∀ t : Fin grid1.N, _)

/-- The four windows handed whole (weights and biases) take block 0 on every axis at every point. -/
theorem idxWhole : ∀ t : Fin cfg1.N,
    (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0 :=
  (by decide +kernel : ∀ t : Fin grid1.N, _)

/-! ## Where a block's element sits in its array -/

/-- Element (r, j) of point `t`'s block of the joined rows is element (2000·t + r, j) of the array. -/
theorem embX (t : Fin cfg1.N) (r : Fin 2000) (j : Fin 256) (h : t.val * 2000 + r.val < 10000) :
    ((cfg1.win 0).blk t).view.emb (ix2 r j) = ix2 (⟨t.val * 2000 + r.val, h⟩ : Fin 10000) j := by
  obtain ⟨⟨e0, e1⟩, -⟩ := idxRows t
  funext a; apply Fin.ext
  match a with
  | ⟨0, _⟩ => show win1_0.index t (0 : Fin 2) * 2000 + 1 * r.val = t.val * 2000 + r.val; omega
  | ⟨1, _⟩ => show win1_0.index t (1 : Fin 2) * 256 + 1 * j.val = j.val; omega

/-- Element (r, n) of point `t`'s block of the node features is element (2000·t + r, n) of the array. -/
theorem embH (t : Fin cfg1.N) (r : Fin 2000) (n : Fin 128) (h : t.val * 2000 + r.val < 10000) :
    ((cfg1.win 1).blk t).view.emb (ix2 r n) = ix2 (⟨t.val * 2000 + r.val, h⟩ : Fin 10000) n := by
  obtain ⟨-, ⟨e0, e1⟩, -⟩ := idxRows t
  funext a; apply Fin.ext
  match a with
  | ⟨0, _⟩ => show win1_1.index t (0 : Fin 2) * 2000 + 1 * r.val = t.val * 2000 + r.val; omega
  | ⟨1, _⟩ => show win1_1.index t (1 : Fin 2) * 128 + 1 * n.val = n.val; omega

/-- An element of the first weights' block sits where it is. -/
theorem embW1 (t : Fin cfg1.N) (j : Fin 256) (k : Fin 128) : ((cfg1.win 2).blk t).view.emb (ix2 j k) = ix2 j k := by
  obtain ⟨⟨e0, e1⟩, -⟩ := idxWhole t
  funext a; apply Fin.ext
  match a with
  | ⟨0, _⟩ => show win1_2.index t (0 : Fin 2) * 256 + 1 * j.val = j.val; omega
  | ⟨1, _⟩ => show win1_2.index t (1 : Fin 2) * 128 + 1 * k.val = k.val; omega

/-- An element of the first bias's block sits where it is. -/
theorem embB1 (t : Fin cfg1.N) (k : Fin 128) : ((cfg1.win 3).blk t).view.emb (ix1 k) = ix1 k := by
  obtain ⟨-, e0, -⟩ := idxWhole t
  funext a; apply Fin.ext
  match a with
  | ⟨0, _⟩ => show win1_3.index t (0 : Fin 1) * 128 + 1 * k.val = k.val; omega

/-- An element of the second weights' block sits where it is. -/
theorem embW2 (t : Fin cfg1.N) (k : Fin 128) (n : Fin 128) : ((cfg1.win 4).blk t).view.emb (ix2 k n) = ix2 k n := by
  obtain ⟨-, -, ⟨e0, e1⟩, -⟩ := idxWhole t
  funext a; apply Fin.ext
  match a with
  | ⟨0, _⟩ => show win1_4.index t (0 : Fin 2) * 128 + 1 * k.val = k.val; omega
  | ⟨1, _⟩ => show win1_4.index t (1 : Fin 2) * 128 + 1 * n.val = n.val; omega

/-- An element of the second bias's block sits where it is. -/
theorem embB2 (t : Fin cfg1.N) (n : Fin 128) : ((cfg1.win 5).blk t).view.emb (ix1 n) = ix1 n := by
  obtain ⟨-, -, -, e0⟩ := idxWhole t
  funext a; apply Fin.ext
  match a with
  | ⟨0, _⟩ => show win1_5.index t (0 : Fin 1) * 128 + 1 * n.val = n.val; omega

/-- Element (r, n) of point `t`'s block of the output is element (2000·t + r, n) of the array. -/
theorem embOut (t : Fin cfg1.N) (r : Fin 2000) (n : Fin 128) (h : t.val * 2000 + r.val < 10000) :
    ((cfg1.win 6).blk t).view.emb (ix2 r n) = ix2 (⟨t.val * 2000 + r.val, h⟩ : Fin 10000) n := by
  obtain ⟨-, -, e0, e1⟩ := idxRows t
  funext a; apply Fin.ext
  match a with
  | ⟨0, _⟩ => show win1_6.index t (0 : Fin 2) * 2000 + 1 * r.val = t.val * 2000 + r.val; omega
  | ⟨1, _⟩ => show win1_6.index t (1 : Fin 2) * 128 + 1 * n.val = n.val; omega

/-! ## One block -/

/-- The output buffer after the body, at entry (r, n), from the six input blocks in the windows' order: the node
    features' block there plus lane `n` of the perceptron of row `r` of the joined rows' block. -/
theorem blockOut_apply (x0 : Vec Ideal S2000x256 .f32) (x1 : Vec Ideal S2000x128 .f32) (x2 : Vec Ideal S256x128 .f32)
    (x3 : Vec Ideal S128 .f32) (x4 : Vec Ideal S128x128 .f32) (x5 : Vec Ideal S128 .f32) (r : Fin 2000) (n : Fin 128) :
    Upd.blockOut x0 x1 x2 x3 x4 x5 (ix2 r n)
      = x1 (ix2 r n) + Cert.Spec.mlp (fun j : Fin 256 => x0 (ix2 r j)) (fun j k => x2 (ix2 j k)) (fun k => x3 (ix1 k))
          (fun k n' => x4 (ix2 k n')) (fun n' => x5 (ix1 n')) n := by
  unfold Upd.blockOut
  rw [View.canon_unit_zero hz2]
  simp only [View.ld_unit_zero (S := S2000x256) hz2, View.ld_unit_zero (S := S2000x128) hz2,
    View.ld_unit_zero (S := S256x128) hz2, View.ld_unit_zero (S := S128) hz1, View.ld_unit_zero (S := S128x128) hz2]
  exact Pay.pay1_apply x0 x2 x3 x4 x5 x1 r n

variable (V : (c : Dev nD) → (b : Ref sig .tc) → Buf (Elt Ideal) ((c : Thread nD τ).loc b))

/-- WHAT POINT `t` WRITES BACK is block `t` of `updArr` of the arrays as the region finds them. -/
theorem flushed_eq (c : Dev nD) (t : Fin cfg1.N) :
    (Upd.dat V c).flushed 6 t = ((cfg1.win 6).blk t).view.read (Elt Ideal)
      (updArr (V c main_v25) (V c main_arg0) (V c main_arg7) (V c main_arg8) (V c main_arg9) (V c main_arg10)) := by
  show (cfg1.win 6).cut (grid1.coords t) ((Upd.dat V c).after 6 t) = _
  rw [Upd.after_6]
  have hN : t.val < 5 := lt_of_lt_of_eq t.isLt N_1
  funext j
  obtain ⟨r, n, rfl⟩ : ∃ (r : Fin 2000) (n : Fin 128), j = ix2 r n := ⟨j 0, j 1, eq_ix2 j⟩
  have hr : t.val * 2000 + r.val < 10000 := by have := r.isLt; omega
  show Upd.blockOut (Upd.blk V c 0 t) (Upd.blk V c 1 t) (Upd.blk V c 2 t) (Upd.blk V c 3 t) (Upd.blk V c 4 t) (Upd.blk V c 5 t) (ix2 r n)
    = updArr (V c main_v25) (V c main_arg0) (V c main_arg7) (V c main_arg8) (V c main_arg9) (V c main_arg10)
        (((cfg1.win 6).blk t).view.emb (ix2 r n))
  rw [embOut t r n hr, blockOut_apply]
  unfold updArr
  have hX : ∀ j : Fin 256, Upd.blk V c 0 t (ix2 r j) = V c main_v25 (ix2 (⟨t.val * 2000 + r.val, hr⟩ : Fin 10000) j) := fun j => by
    show V c main_v25 (((cfg1.win 0).blk t).view.emb (ix2 r j)) = _
    rw [embX t r j hr]
  have hH : Upd.blk V c 1 t (ix2 r n) = V c main_arg0 (ix2 (⟨t.val * 2000 + r.val, hr⟩ : Fin 10000) n) := by
    show V c main_arg0 (((cfg1.win 1).blk t).view.emb (ix2 r n)) = _
    rw [embH t r n hr]
  have hW1 : ∀ (j : Fin 256) (k : Fin 128), Upd.blk V c 2 t (ix2 j k) = V c main_arg7 (ix2 j k) := fun j k => by
    show V c main_arg7 (((cfg1.win 2).blk t).view.emb (ix2 j k)) = _
    rw [embW1 t j k]
  have hB1 : ∀ k : Fin 128, Upd.blk V c 3 t (ix1 k) = V c main_arg8 (ix1 k) := fun k => by
    show V c main_arg8 (((cfg1.win 3).blk t).view.emb (ix1 k)) = _
    rw [embB1 t k]
  have hW2 : ∀ (k : Fin 128) (n' : Fin 128), Upd.blk V c 4 t (ix2 k n') = V c main_arg9 (ix2 k n') := fun k n' => by
    show V c main_arg9 (((cfg1.win 4).blk t).view.emb (ix2 k n')) = _
    rw [embW2 t k n']
  have hB2 : ∀ n' : Fin 128, Upd.blk V c 5 t (ix1 n') = V c main_arg10 (ix1 n') := fun n' => by
    show V c main_arg10 (((cfg1.win 5).blk t).view.emb (ix1 n')) = _
    rw [embB2 t n']
  simp only [hX, hH, hW1, hB1, hW2, hB2]

/-- An index of the output array is in point `t`'s block iff each coordinate is in the block's range on its axis. -/
theorem mem_blk (t : Fin cfg1.N) (i : S10000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v26).slice (win1_6.rect t)).set ↔ _
  rw [View.set_slice_whole, Rect.mem_set_unit]
  exact Iff.rfl

/-- Every row of the output lies in some point's block: row `v` in block `v / 2000`. -/
theorem cover (i : S10000x128.Idx) : ∃ t : Fin cfg1.N, (cfg1.win 6).flush t = true ∧ i ∈ ((cfg1.win 6).blk t).view.set := by
  have hi0 : (i 0).val < 10000 := idx2_lt0 i
  have hi1 : (i 1).val < 128 := idx2_lt1 i
  have hN : cfg1.N = 5 := N_1
  let t : Fin cfg1.N := ⟨(i 0).val / 2000, by rw [hN]; omega⟩
  have ht : t.val = (i 0).val / 2000 := rfl
  obtain ⟨-, -, e0, e1⟩ := idxRows t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE OUTPUT ARRAY after the last point is `updArr` of the arrays as the region finds them. -/
theorem final (V : (c : Dev nD) → (b : Ref sig .tc) → Buf (Elt Ideal) ((c : Thread nD τ).loc b)) (c : Dev nD) :
    (Upd.dat V c).arrAt 6 cfg1.N = updArr (V c main_v25) (V c main_arg0) (V c main_arg7) (V c main_arg8) (V c main_arg9) (V c main_arg10) :=
  (Upd.dat V c).arrAt_eq_of_cover 6 _ (fun t _ => flushed_eq V c t) cover

end Cert.KernelIdeal.UpdVal

end
-- ==== Proof.KIHost.lean ====
/-
  The arrays the two regions are handed, and what the program returns, read as terms of the eleven arguments.

  Before the message region: the joined edge rows (sender's row, receiver's row, the edge's scalar — the rows gathered at the
  normalised indices) padded on the right with 127 zero columns, and the first weights padded below with 127 zero rows; the
  zero is the integer 0 converted to a float.  Between the regions: the zero array, the receiver indices as a column, the
  messages scatter-added into it, and the result joined to the right of the node features.  The gathers, the join and the
  scatter-add are never opened here: they are the very operations the plain program applies, so they are named by the plain
  program's own stage functions (`val_main_v18`, `val_main_v3`) and carried along whole.
-/
import proofs.«166899_j16939351015861_1_alg».proof.Proof.KIRun
import proofs.«166899_j16939351015861_1_alg».proof.Proof.KIMsgVal
import proofs.«166899_j16939351015861_1_alg».proof.Proof.KIUpdVal
import proofs.«166899_j16939351015861_1_alg».proof.Proof.Gen.ReferenceIdeal.Read
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The float zero the padding functions make: the integer constant 0, converted. -/
abbrev zeroF : S_.Idx → EReal := sitofp (F := Ideal) .f32 (constantI S_ 32 0#32)

/-! ## After the first stretch -/

/-- The joined edge rows are the plain program's joined edge rows of the same arguments. -/
theorem joined_rows (c : Dev nD) :
    (Run.W1 m ρ c (Proc.devRef .tc main_v18) : S640000x257.Idx → EReal)
      = Cert.ReferenceIdeal.Read.val_main_v18 (F := Ideal) (m ((c.tc : Thread nD τ).loc main_arg0)) (m ((c.tc : Thread nD τ).loc main_arg1))
          (m ((c.tc : Thread nD τ).loc main_arg2)) := by
  show StableHlo.after hostOps0 (Run.W0 m ρ c) (Proc.devRef .tc main_v18) = _
  after_results <;> rfl

/-- The receiver indices are the plain program's. -/
theorem receivers (c : Dev nD) :
    (Run.W1 m ρ c (Proc.devRef .tc main_v3) : S640000.Idx → BitVec 32)
      = Cert.ReferenceIdeal.Read.val_main_v3 (F := Ideal) (m ((c.tc : Thread nD τ).loc main_arg1)) := by
  show StableHlo.after hostOps0 (Run.W0 m ρ c) (Proc.devRef .tc main_v3) = _
  after_results <;> rfl

/-- The padding value's source: the integer constant 0. -/
theorem pad_const (c : Dev nD) :
    Run.W1 m ρ c (Proc.devRef .tc main_c_3) = constantI S_ 32 0#32 := by
  show StableHlo.after hostOps0 (Run.W0 m ρ c) (Proc.devRef .tc main_c_3) = _
  after_results <;> rfl

/-! ## A buffer the first four stretches do not write -/

theorem keep3 (c : Dev nD) (b : Ref sig .tc) (h0 : b ∉ hostOps0_W) (h1 : b ∉ hostOps0_1_W) (h2 : b ∉ hostOps0_2_W) :
    Run.W3 m ρ c (Proc.devRef .tc b) = m ((c.tc : Thread nD τ).loc b) :=
  calc Run.W3 m ρ c (Proc.devRef .tc b)
    _ = Run.W2 m ρ c (Proc.devRef .tc b) := StableHlo.after_of_writes_sub hostOps0_2 _ hostOps0_2_writes h2
    _ = Run.W1 m ρ c (Proc.devRef .tc b) := StableHlo.after_of_writes_sub hostOps0_1 _ hostOps0_1_writes h1
    _ = Run.W0 m ρ c (Proc.devRef .tc b) := StableHlo.after_of_writes_sub hostOps0 _ hostOps0_writes h0
    _ = m ((c.tc : Thread nD τ).loc b) := rfl

theorem keep4 (c : Dev nD) (b : Ref sig .tc) (h0 : b ∉ hostOps0_W) (h1 : b ∉ hostOps0_1_W) (h2 : b ∉ hostOps0_2_W) (h3 : b ∉ hostOps0_3_W) :
    Run.W4 m ρ c (Proc.devRef .tc b) = m ((c.tc : Thread nD τ).loc b) :=
  (StableHlo.after_of_writes_sub hostOps0_3 _ hostOps0_3_writes h3).trans (keep3 m ρ c b h0 h1 h2)

/-! ## The two paddings, from any contents -/

/-- The padding of the joined rows, run from any contents. -/
theorem pad_rows_after (W : Valuation τ sig (Elt Ideal)) :
    (StableHlo.after hostOps0_1 W (Proc.devRef .tc main_v19) : S640000x384.Idx → EReal)
      = pad S640000x384 ![0, 0] ![0, 127] ![0, 0] (W (Proc.devRef .tc main_v18) : S640000x257.Idx → EReal) (sitofp (F := Ideal) .f32 (W (Proc.devRef .tc main_c_3) : S_.Idx → BitVec 32))
          pads_S640000x257_S640000x384_000_01270 h_S_ := by
  after_results <;> rfl

/-- The padding of the first weights, run from any contents. -/
theorem pad_w_after (W : Valuation τ sig (Elt Ideal)) :
    (StableHlo.after hostOps0_3 W (Proc.devRef .tc main_v20) : S384x128.Idx → EReal)
      = pad S384x128 ![0, 0] ![127, 0] ![0, 0] (W (Proc.devRef .tc main_arg3) : S257x128.Idx → EReal) (sitofp (F := Ideal) .f32 (W (Proc.devRef .tc main_c_4) : S_.Idx → BitVec 32))
          pads_S257x128_S384x128_01270_000 h_S_ := by
  after_results <;> rfl

/-- The one constant between the paddings, run from any contents. -/
theorem const_after (W : Valuation τ sig (Elt Ideal)) :
    StableHlo.after hostOps0_2 W (Proc.devRef .tc main_c_4) = constantI S_ 32 0#32 := by
  after_results <;> rfl

/-! ## What the message region is handed -/

/-- The padded joined rows. -/
theorem in_rows (c : Dev nD) : (Run.V4 m ρ c main_v19 : S640000x384.Idx → EReal) = (pad S640000x384 ![0, 0] ![0, 127] ![0, 0] (Cert.ReferenceIdeal.Read.val_main_v18 (F := Ideal) (m ((c.tc : Thread nD τ).loc main_arg0)) (m ((c.tc : Thread nD τ).loc main_arg1)) (m ((c.tc : Thread nD τ).loc main_arg2))) zeroF pads_S640000x257_S640000x384_000_01270 h_S_) := by
  have e3 : Run.W4 m ρ c (Proc.devRef .tc main_v19) = Run.W3 m ρ c (Proc.devRef .tc main_v19) :=
    StableHlo.after_of_writes_sub hostOps0_3 _ hostOps0_3_writes (by decide)
  have e2 : Run.W3 m ρ c (Proc.devRef .tc main_v19) = Run.W2 m ρ c (Proc.devRef .tc main_v19) :=
    StableHlo.after_of_writes_sub hostOps0_2 _ hostOps0_2_writes (by decide)
  show Run.W4 m ρ c (Proc.devRef .tc main_v19) = _
  rw [e3, e2]
  show StableHlo.after hostOps0_1 (Run.W1 m ρ c) (Proc.devRef .tc main_v19) = _
  rw [pad_rows_after, joined_rows m ρ c, pad_const m ρ c]

/-- The padded first weights. -/
theorem in_w1 (c : Dev nD) : (Run.V4 m ρ c main_v20 : S384x128.Idx → EReal) = (pad S384x128 ![0, 0] ![127, 0] ![0, 0] (m ((c.tc : Thread nD τ).loc main_arg3)) zeroF pads_S257x128_S384x128_01270_000 h_S_) := by
  have e : Run.W3 m ρ c (Proc.devRef .tc main_c_4) = constantI S_ 32 0#32 := const_after (Run.W2 m ρ c)
  show StableHlo.after hostOps0_3 (Run.W3 m ρ c) (Proc.devRef .tc main_v20) = _
  rw [pad_w_after, keep3 m ρ c main_arg3 (by decide) (by decide) (by decide), e]

theorem in_b1 (c : Dev nD) : Run.V4 m ρ c main_arg4 = (m ((c.tc : Thread nD τ).loc main_arg4)) := keep4 m ρ c main_arg4 (by decide) (by decide) (by decide) (by decide)
theorem in_w2 (c : Dev nD) : Run.V4 m ρ c main_arg5 = (m ((c.tc : Thread nD τ).loc main_arg5)) := keep4 m ρ c main_arg5 (by decide) (by decide) (by decide) (by decide)
theorem in_b2 (c : Dev nD) : Run.V4 m ρ c main_arg6 = (m ((c.tc : Thread nD τ).loc main_arg6)) := keep4 m ρ c main_arg6 (by decide) (by decide) (by decide) (by decide)

/-- THE MESSAGES: what the message region leaves in its output array. -/
theorem msgs (c : Dev nD) : (Run.W5 m ρ c (Proc.devRef .tc main_v21) : S640000x128.Idx → EReal) = (MsgVal.msgArr (pad S640000x384 ![0, 0] ![0, 127] ![0, 0] (Cert.ReferenceIdeal.Read.val_main_v18 (F := Ideal) (m ((c.tc : Thread nD τ).loc main_arg0)) (m ((c.tc : Thread nD τ).loc main_arg1)) (m ((c.tc : Thread nD τ).loc main_arg2))) zeroF pads_S640000x257_S640000x384_000_01270 h_S_) (pad S384x128 ![0, 0] ![127, 0] ![0, 0] (m ((c.tc : Thread nD τ).loc main_arg3)) zeroF pads_S257x128_S384x128_01270_000 h_S_) (m ((c.tc : Thread nD τ).loc main_arg4)) (m ((c.tc : Thread nD τ).loc main_arg5)) (m ((c.tc : Thread nD τ).loc main_arg6))) := by
  refine (Run.W5_arr m ρ c 5).trans ((MsgVal.final (Run.V4 m ρ) c).trans ?_)
  rw [in_rows m ρ c, in_w1 m ρ c, in_b1 m ρ c, in_w2 m ρ c, in_b2 m ρ c]

/-! ## What the update region is handed -/

/-- The second stretch, run from any contents: the messages scatter-added into zeros at the receivers, joined to the node
    features. -/
theorem nodes_after (W : Valuation τ sig (Elt Ideal)) :
    (StableHlo.after hostOps1 W (Proc.devRef .tc main_v25) : S10000x256.Idx → EReal)
      = concatenate S10000x256 1 [⟨S10000x128, W (Proc.devRef .tc main_arg0)⟩, ⟨S10000x128, Host.scatterAdd (F := Ideal) (φ := .f32) scatter_S10000x128_S640000x1_S640000x128_1_0_0_1
          (broadcastInDim S10000x128 ![] bcast_S_S10000x128 (constant (F := Ideal) S_ .f32 0x00000000#32))
          (broadcastInDim S640000x1 ![0] bcast_S640000_S640000x1_0 (W (Proc.devRef .tc main_v3)))
          (W (Proc.devRef .tc main_v21))⟩] concatenates_S10000x128_S10000x128_S10000x256_d1 := by
  after_results <;> rfl

/-- A buffer written by none of the first four stretches and not the message region's output is, at the update
    region's entry side of the message region, as launched. -/
theorem keep5 (c : Dev nD) (b : Ref sig .tc) (h0 : b ∉ hostOps0_W) (h1 : b ∉ hostOps0_1_W) (h2 : b ∉ hostOps0_2_W) (h3 : b ∉ hostOps0_3_W)
    (h4 : b ≠ main_v21) : Run.W5 m ρ c (Proc.devRef .tc b) = m ((c.tc : Thread nD τ).loc b) :=
  (Run.W5_keep m ρ c b h4).trans (keep4 m ρ c b h0 h1 h2 h3)

theorem keep6 (c : Dev nD) (b : Ref sig .tc) (h0 : b ∉ hostOps0_W) (h1 : b ∉ hostOps0_1_W) (h2 : b ∉ hostOps0_2_W) (h3 : b ∉ hostOps0_3_W)
    (h4 : b ≠ main_v21) (h5 : b ∉ hostOps1_W) : Run.W6 m ρ c (Proc.devRef .tc b) = m ((c.tc : Thread nD τ).loc b) :=
  (StableHlo.after_of_writes_sub hostOps1 _ hostOps1_writes h5).trans (keep5 m ρ c b h0 h1 h2 h3 h4)

/-- The receiver indices reach the second stretch unchanged. -/
theorem receivers5 (c : Dev nD) : (Run.W5 m ρ c (Proc.devRef .tc main_v3) : S640000.Idx → BitVec 32) = (Cert.ReferenceIdeal.Read.val_main_v3 (F := Ideal) (m ((c.tc : Thread nD τ).loc main_arg1))) := by
  have e5 : Run.W5 m ρ c (Proc.devRef .tc main_v3) = Run.W4 m ρ c (Proc.devRef .tc main_v3) := Run.W5_keep m ρ c main_v3 (by decide)
  have e4 : Run.W4 m ρ c (Proc.devRef .tc main_v3) = Run.W3 m ρ c (Proc.devRef .tc main_v3) :=
    StableHlo.after_of_writes_sub hostOps0_3 _ hostOps0_3_writes (by decide)
  have e3 : Run.W3 m ρ c (Proc.devRef .tc main_v3) = Run.W2 m ρ c (Proc.devRef .tc main_v3) :=
    StableHlo.after_of_writes_sub hostOps0_2 _ hostOps0_2_writes (by decide)
  have e2 : Run.W2 m ρ c (Proc.devRef .tc main_v3) = Run.W1 m ρ c (Proc.devRef .tc main_v3) :=
    StableHlo.after_of_writes_sub hostOps0_1 _ hostOps0_1_writes (by decide)
  show Run.W5 m ρ c (Proc.devRef .tc main_v3) = _
  rw [e5, e4, e3, e2]
  exact receivers m ρ c

/-- The joined node rows. -/
theorem in_nodes (c : Dev nD) : (Run.V6 m ρ c main_v25 : S10000x256.Idx → EReal) = (concatenate S10000x256 1 [⟨S10000x128, (m ((c.tc : Thread nD τ).loc main_arg0))⟩, ⟨S10000x128, Host.scatterAdd (F := Ideal) (φ := .f32) scatter_S10000x128_S640000x1_S640000x128_1_0_0_1
          (broadcastInDim S10000x128 ![] bcast_S_S10000x128 (constant (F := Ideal) S_ .f32 0x00000000#32))
          (broadcastInDim S640000x1 ![0] bcast_S640000_S640000x1_0 (Cert.ReferenceIdeal.Read.val_main_v3 (F := Ideal) (m ((c.tc : Thread nD τ).loc main_arg1))))
          (MsgVal.msgArr (pad S640000x384 ![0, 0] ![0, 127] ![0, 0] (Cert.ReferenceIdeal.Read.val_main_v18 (F := Ideal) (m ((c.tc : Thread nD τ).loc main_arg0)) (m ((c.tc : Thread nD τ).loc main_arg1)) (m ((c.tc : Thread nD τ).loc main_arg2))) zeroF pads_S640000x257_S640000x384_000_01270 h_S_) (pad S384x128 ![0, 0] ![127, 0] ![0, 0] (m ((c.tc : Thread nD τ).loc main_arg3)) zeroF pads_S257x128_S384x128_01270_000 h_S_) (m ((c.tc : Thread nD τ).loc main_arg4)) (m ((c.tc : Thread nD τ).loc main_arg5)) (m ((c.tc : Thread nD τ).loc main_arg6)))⟩] concatenates_S10000x128_S10000x128_S10000x256_d1) := by
  show StableHlo.after hostOps1 (Run.W5 m ρ c) (Proc.devRef .tc main_v25) = _
  rw [nodes_after, keep5 m ρ c main_arg0 (by decide) (by decide) (by decide) (by decide) (by decide), receivers5 m ρ c, msgs m ρ c]

theorem in_h (c : Dev nD) : Run.V6 m ρ c main_arg0 = (m ((c.tc : Thread nD τ).loc main_arg0)) := keep6 m ρ c main_arg0 (by decide) (by decide) (by decide) (by decide) (by decide) (by decide)
theorem in_u1 (c : Dev nD) : Run.V6 m ρ c main_arg7 = (m ((c.tc : Thread nD τ).loc main_arg7)) := keep6 m ρ c main_arg7 (by decide) (by decide) (by decide) (by decide) (by decide) (by decide)
theorem in_c1 (c : Dev nD) : Run.V6 m ρ c main_arg8 = (m ((c.tc : Thread nD τ).loc main_arg8)) := keep6 m ρ c main_arg8 (by decide) (by decide) (by decide) (by decide) (by decide) (by decide)
theorem in_u2 (c : Dev nD) : Run.V6 m ρ c main_arg9 = (m ((c.tc : Thread nD τ).loc main_arg9)) := keep6 m ρ c main_arg9 (by decide) (by decide) (by decide) (by decide) (by decide) (by decide)
theorem in_c2 (c : Dev nD) : Run.V6 m ρ c main_arg10 = (m ((c.tc : Thread nD τ).loc main_arg10)) := keep6 m ρ c main_arg10 (by decide) (by decide) (by decide) (by decide) (by decide) (by decide)

/-- THE RESULT: the program's result buffer at the end of the run, as a term of the eleven arguments. -/
theorem result (c : Dev nD) : (Run.W7 m ρ c (Proc.devRef .tc main_v26) : S10000x128.Idx → EReal)
    = UpdVal.updArr (concatenate S10000x256 1 [⟨S10000x128, (m ((c.tc : Thread nD τ).loc main_arg0))⟩, ⟨S10000x128, Host.scatterAdd (F := Ideal) (φ := .f32) scatter_S10000x128_S640000x1_S640000x128_1_0_0_1
          (broadcastInDim S10000x128 ![] bcast_S_S10000x128 (constant (F := Ideal) S_ .f32 0x00000000#32))
          (broadcastInDim S640000x1 ![0] bcast_S640000_S640000x1_0 (Cert.ReferenceIdeal.Read.val_main_v3 (F := Ideal) (m ((c.tc : Thread nD τ).loc main_arg1))))
          (MsgVal.msgArr (pad S640000x384 ![0, 0] ![0, 127] ![0, 0] (Cert.ReferenceIdeal.Read.val_main_v18 (F := Ideal) (m ((c.tc : Thread nD τ).loc main_arg0)) (m ((c.tc : Thread nD τ).loc main_arg1)) (m ((c.tc : Thread nD τ).loc main_arg2))) zeroF pads_S640000x257_S640000x384_000_01270 h_S_) (pad S384x128 ![0, 0] ![127, 0] ![0, 0] (m ((c.tc : Thread nD τ).loc main_arg3)) zeroF pads_S257x128_S384x128_01270_000 h_S_) (m ((c.tc : Thread nD τ).loc main_arg4)) (m ((c.tc : Thread nD τ).loc main_arg5)) (m ((c.tc : Thread nD τ).loc main_arg6)))⟩] concatenates_S10000x128_S10000x128_S10000x256_d1) (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) := by
  refine (Run.end_out m ρ c).trans ((UpdVal.final (Run.V6 m ρ) c).trans ?_)
  rw [in_nodes m ρ c, in_h m ρ c, in_u1 m ρ c, in_c1 m ρ c, in_u2 m ρ c, in_c2 m ρ c]

end Cert.KernelIdeal.Host

end
-- ==== Proof.SpecLaws.lean ====
/-
  Laws of the shared two-layer perceptron.

  Padding: an input row whose entries from position K on are all zero gives the same result as its first K entries
  against the first K rows of the first weight matrix.  A zero entry contributes 0 · w = 0 to the inner sum whatever
  w is (zero times anything is zero on the extended reals, the infinities included), so the inner sum over the long
  row is the inner sum over its first K entries; nothing else of the expression changes.
-/
import proofs.«166899_j16939351015861_1_alg».proof.Proof.Spec
import Mathlib.Algebra.BigOperators.Fin

noncomputable section

namespace Cert.Spec

open scoped BigOperators

/-- A sum over `Fin K'` of a function that vanishes from position `K` on is the sum of its first `K` values. -/
theorem sum_pad {K K' : ℕ} (h : K ≤ K') (f : Fin K' → EReal) (hf : ∀ j : Fin K', K ≤ j.val → f j = 0) :
    ∑ j : Fin K', f j = ∑ j : Fin K, f (Fin.castLE h j) := by
  obtain ⟨d, rfl⟩ := Nat.exists_eq_add_of_le h
  rw [Fin.sum_univ_add]
  have h0 : ∑ i : Fin d, f (Fin.natAdd K i) = 0 := by
    apply Finset.sum_eq_zero
    intro i _
    exact hf _ (by simp [Fin.natAdd])
  rw [h0, add_zero]
  rfl

/-- Zero entries from position `K` on may be dropped from the input row, with the matching rows of the first weight
    matrix. -/
theorem mlp_pad {K K' : ℕ} (h : K ≤ K') (x : Fin K' → EReal) (w1 : Fin K' → Fin 128 → EReal) (b1 : Fin 128 → EReal)
    (w2 : Fin 128 → Fin 128 → EReal) (b2 : Fin 128 → EReal) (n : Fin 128)
    (hx : ∀ j : Fin K', K ≤ j.val → x j = 0) :
    mlp x w1 b1 w2 b2 n
      = mlp (fun j : Fin K => x (Fin.castLE h j)) (fun j k => w1 (Fin.castLE h j) k) b1 w2 b2 n := by
  unfold mlp
  have hin : ∀ k : Fin 128, ∑ j : Fin K', x j * w1 j k = ∑ j : Fin K, x (Fin.castLE h j) * w1 (Fin.castLE h j) k :=
    fun k => sum_pad h (fun j => x j * w1 j k) (fun j hj => by rw [hx j hj, zero_mul])
  simp only [hin]

end Cert.Spec

end
-- ==== Proof.KIPad.lean ====
/-
  Padding with zeros does not change the perceptron.

  Before the message region runs, the edge rows (257 entries each) are padded on the right to 384 entries with the one
  entry of a scalar array, and the first weight matrix (257 rows) is padded below to 384 rows likewise.  A padded array
  read inside the operand is the operand there, and read in the padding is the scalar.  When the scalar that pads the edge
  rows is zero, every entry of a padded row from position 257 on is zero, so it contributes 0 · w = 0 to the first layer's
  sums whatever the padded weights hold there: the perceptron of the padded row against the padded weights is the
  perceptron of the row against the weights.  Hence the messages computed from the padded arrays are, entry by entry, the
  perceptron of the unpadded edge rows.
-/
import proofs.«166899_j16939351015861_1_alg».proof.Proof.KIMsgVal
import proofs.«166899_j16939351015861_1_alg».proof.Proof.SpecLaws
import proofs.«166899_j16939351015861_1_alg».proof.Proof.Gen.KernelIdeal
import Idealize.ShloMosaic.Lib.KernelVsHost
import Idealize.ShloMosaic.Lib.ValueIdx

noncomputable section

namespace Cert.KernelIdeal.PadVal

open Cert.KernelIdeal Cert.KernelIdeal.Gen
open Idealize.ShloMosaic Idealize.ShloMosaic.ValueIdx

variable {α : Type}

/-! ## A matrix padded on one side, read at an entry -/

/-- A matrix padded on the right (no padding elsewhere, none between entries) read at a column of the operand is the
    operand there. -/
theorem padRight_inside {a b c p : ℕ} (x : (⟨2, ![a, b]⟩ : Shape).Idx → α) {u : Shape} (v : u.Idx → α)
    (h : (⟨2, ![a, b]⟩ : Shape).Pads ![0, 0] ![0, p] ![0, 0] ⟨2, ![a, c]⟩) (hu : 0 < u.numel) (hbc : b ≤ c)
    (r : Fin a) (j : Fin b) :
    pad ⟨2, ![a, c]⟩ ![0, 0] ![0, p] ![0, 0] x v h hu (ix2 r (Fin.castLE hbc j)) = x (ix2 r j) :=
  pad_apply_of_inside _ _ _ x v h hu _ (ix2 r j) fun ax => by
    match ax with
    | ⟨0, _⟩ => show r.val = 0 + r.val * (0 + 1); omega
    | ⟨1, _⟩ => show j.val = 0 + j.val * (0 + 1); omega

/-- The same matrix read at a column beyond the operand's is the padding scalar. -/
theorem padRight_outside {a b c p : ℕ} (x : (⟨2, ![a, b]⟩ : Shape).Idx → α) (v : (⟨0, ![]⟩ : Shape).Idx → α)
    (h : (⟨2, ![a, b]⟩ : Shape).Pads ![0, 0] ![0, p] ![0, 0] ⟨2, ![a, c]⟩) (hu : 0 < (⟨0, ![]⟩ : Shape).numel)
    (r : Fin a) (j : Fin c) (hj : b ≤ j.val) :
    pad ⟨2, ![a, c]⟩ ![0, 0] ![0, p] ![0, 0] x v h hu (ix2 r j) = v ix0 :=
  (pad_apply_of_not_inside _ _ _ x v h hu (ix2 r j) (⟨1, by decide⟩ : Fin 2) (fun hc => by
    have h3 : (j.val - 0) / (0 + 1) < b := hc.2.2
    simp only [Nat.sub_zero, Nat.zero_add, Nat.div_one] at h3
    omega)).trans (congrArg v (eq_ix0 _))

/-- A matrix padded below (no padding elsewhere, none between entries) read at a row of the operand is the operand
    there. -/
theorem padBelow_inside {a b c p : ℕ} (x : (⟨2, ![a, b]⟩ : Shape).Idx → α) {u : Shape} (v : u.Idx → α)
    (h : (⟨2, ![a, b]⟩ : Shape).Pads ![0, 0] ![p, 0] ![0, 0] ⟨2, ![c, b]⟩) (hu : 0 < u.numel) (hac : a ≤ c)
    (j : Fin a) (k : Fin b) :
    pad ⟨2, ![c, b]⟩ ![0, 0] ![p, 0] ![0, 0] x v h hu (ix2 (Fin.castLE hac j) k) = x (ix2 j k) :=
  pad_apply_of_inside _ _ _ x v h hu _ (ix2 j k) fun ax => by
    match ax with
    | ⟨0, _⟩ => show j.val = 0 + j.val * (0 + 1); omega
    | ⟨1, _⟩ => show k.val = 0 + k.val * (0 + 1); omega

/-! ## The messages from the padded arrays -/

/-- The messages computed from the edge rows padded on the right with a zero scalar and the first weights padded below
    (with any scalar) are, entry by entry, the perceptron of the unpadded edge rows against the unpadded weights. -/
theorem msgArr_pad (X : (⟨S640000x257, .f32⟩ : BufTy).Contents (Elt Ideal)) (W1 : S257x128.Idx → EReal)
    (z z' : S_.Idx → EReal) (b1 : S128.Idx → EReal) (W2 : S128x128.Idx → EReal) (b2 : S128.Idx → EReal)
    (hz : z ix0 = 0) :
    MsgVal.msgArr (pad S640000x384 ![0, 0] ![0, 127] ![0, 0] X z pads_S640000x257_S640000x384_000_01270 h_S_)
        (pad S384x128 ![0, 0] ![127, 0] ![0, 0] W1 z' pads_S257x128_S384x128_01270_000 h_S_) b1 W2 b2
      = fun i => Cert.Spec.mlp (fun j : Fin 257 => X (ix2 (⟨(i 0).val, idx2_lt0 i⟩ : Fin 640000) j)) (fun j k => W1 (ix2 j k))
          (fun k => b1 (ix1 k)) (fun k n' => W2 (ix2 k n')) (fun n' => b2 (ix1 n')) (⟨(i 1).val, idx2_lt1 i⟩ : Fin 128) := by
  funext i
  unfold MsgVal.msgArr
  have hle : 257 ≤ 384 := by decide
  refine (Cert.Spec.mlp_pad (K := 257) (K' := 384) hle _ _ _ _ _ _ (fun j hj => ?_)).trans ?_
  · exact (padRight_outside X z pads_S640000x257_S640000x384_000_01270 h_S_ _ j hj).trans hz
  · have hx : (fun j : Fin 257 => pad S640000x384 ![0, 0] ![0, 127] ![0, 0] X z pads_S640000x257_S640000x384_000_01270 h_S_
          (ix2 (⟨(i 0).val, idx2_lt0 i⟩ : Fin 640000) (Fin.castLE hle j)))
        = fun j : Fin 257 => X (ix2 (⟨(i 0).val, idx2_lt0 i⟩ : Fin 640000) j) :=
      funext fun j => padRight_inside X z pads_S640000x257_S640000x384_000_01270 h_S_ hle _ j
    have hw : (fun (j : Fin 257) (k : Fin 128) => pad S384x128 ![0, 0] ![127, 0] ![0, 0] W1 z' pads_S257x128_S384x128_01270_000 h_S_
          (ix2 (Fin.castLE hle j) k))
        = fun (j : Fin 257) (k : Fin 128) => W1 (ix2 j k) :=
      funext fun j => funext fun k => padBelow_inside W1 z' pads_S257x128_S384x128_01270_000 h_S_ hle j k
    exact congrArg₂ (fun x w => Cert.Spec.mlp x w (fun k => b1 (ix1 k)) (fun k n' => W2 (ix2 k n')) (fun n' => b2 (ix1 n'))
      (⟨(i 1).val, idx2_lt1 i⟩ : Fin 128)) hx hw

end Cert.KernelIdeal.PadVal

end
-- ==== Proof.RefRead.lean ====
/-
  The reference program read at one entry.

  The reference computes a message for every edge and an update for every node with the same two-layer perceptron.
  Entry (e, n) of the message array is the perceptron of edge e's joined row (lane j of the joined edge array) under
  the first pair of weight matrices and bias rows; entry (r, n) of the result is node r's own feature plus the
  perceptron of node r's joined row (lane j of the joined node array) under the second pair. Each matrix product is
  the sum over its contracted lane, each bias row is read at its lane, and the ramp is the maximum with zero, so each
  chain of operations, read at an index built from its coordinates, is literally the shared specification.
  The joined node array is the node features beside the scatter-added messages; both facts hold by definition.
-/
import proofs.«166899_j16939351015861_1_alg».proof.Proof.Gen.ReferenceIdeal.Read
import proofs.«166899_j16939351015861_1_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
open scoped BigOperators

/-! ## The composed index maps at an index built from coordinates -/

/-- The first product of the edge network reads row e of its left operand at the contracted lane j … -/
theorem lidx19 (e : Fin 640000) (k : Fin 128) (j : Fin 257) : lidx_main_v19 (ix2 e k) j = ix2 e j :=
  funext fun a => Fin.ext (by match a with | ⟨0, _⟩ => rfl | ⟨1, _⟩ => rfl)
/-- … and column k of its right operand at the same lane. -/
theorem ridx19 (e : Fin 640000) (k : Fin 128) (j : Fin 257) : ridx_main_v19 (ix2 e k) j = ix2 j k :=
  funext fun a => Fin.ext (by match a with | ⟨0, _⟩ => rfl | ⟨1, _⟩ => rfl)
/-- The first bias row of the edge network, broadcast along the edges, is read at lane k. -/
theorem bidx21 (e : Fin 640000) (k : Fin 128) : idx_main_v20 (idx_main_v21 (ix2 e k)) = ix1 k :=
  funext fun a => Fin.ext (by match a with | ⟨0, _⟩ => rfl)
/-- The second product of the edge network reads row e of its left operand at the contracted lane k … -/
theorem lidx24 (e : Fin 640000) (n : Fin 128) (k : Fin 128) : lidx_main_v24 (ix2 e n) k = ix2 e k :=
  funext fun a => Fin.ext (by match a with | ⟨0, _⟩ => rfl | ⟨1, _⟩ => rfl)
/-- … and column n of its right operand at the same lane. -/
theorem ridx24 (e : Fin 640000) (n : Fin 128) (k : Fin 128) : ridx_main_v24 (ix2 e n) k = ix2 k n :=
  funext fun a => Fin.ext (by match a with | ⟨0, _⟩ => rfl | ⟨1, _⟩ => rfl)
/-- The second bias row of the edge network is read at lane n. -/
theorem bidx26 (e : Fin 640000) (n : Fin 128) : idx_main_v25 (idx_main_v26 (ix2 e n)) = ix1 n :=
  funext fun a => Fin.ext (by match a with | ⟨0, _⟩ => rfl)
/-- The node network's index maps are the same four, over the nodes and the 256 joined lanes. -/
theorem lidx32 (r : Fin 10000) (k : Fin 128) (j : Fin 256) : lidx_main_v32 (ix2 r k) j = ix2 r j :=
  funext fun a => Fin.ext (by match a with | ⟨0, _⟩ => rfl | ⟨1, _⟩ => rfl)
theorem ridx32 (r : Fin 10000) (k : Fin 128) (j : Fin 256) : ridx_main_v32 (ix2 r k) j = ix2 j k :=
  funext fun a => Fin.ext (by match a with | ⟨0, _⟩ => rfl | ⟨1, _⟩ => rfl)
theorem bidx34 (r : Fin 10000) (k : Fin 128) : idx_main_v33 (idx_main_v34 (ix2 r k)) = ix1 k :=
  funext fun a => Fin.ext (by match a with | ⟨0, _⟩ => rfl)
theorem lidx37 (r : Fin 10000) (n : Fin 128) (k : Fin 128) : lidx_main_v37 (ix2 r n) k = ix2 r k :=
  funext fun a => Fin.ext (by match a with | ⟨0, _⟩ => rfl | ⟨1, _⟩ => rfl)
theorem ridx37 (r : Fin 10000) (n : Fin 128) (k : Fin 128) : ridx_main_v37 (ix2 r n) k = ix2 k n :=
  funext fun a => Fin.ext (by match a with | ⟨0, _⟩ => rfl | ⟨1, _⟩ => rfl)
theorem bidx39 (r : Fin 10000) (n : Fin 128) : idx_main_v38 (idx_main_v39 (ix2 r n)) = ix1 n :=
  funext fun a => Fin.ext (by match a with | ⟨0, _⟩ => rfl)

variable (x0 : (⟨S10000x128, .f32⟩ : BufTy).Contents (Elt Ideal)) (x1 : (⟨S2x640000, .i32⟩ : BufTy).Contents (Elt Ideal))
  (x2 : (⟨S640000x1, .f32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-! ## The edge network -/

/-- Hidden lane k of edge e: the ramp of the first product's entry plus the first bias. -/
theorem edge_hidden_apply (e : Fin 640000) (k : Fin 128) :
    val_main_v23 (F := Ideal) x0 x1 x2 x3 x4 (ix2 e k)
      = max ((∑ j : Fin 257, val_main_v18 (F := Ideal) x0 x1 x2 (ix2 e j) * x3 (ix2 j k)) + x4 (ix1 k)) 0 := by
  rw [val_main_v23_apply, val_main_v22_apply, val_main_v19_apply, val_main_v21_apply, val_main_v20_apply,
    val_main_call0_v0_apply, val_main_call0_cst_apply, bidx21]
  simp only [lidx19, ridx19, Ideal.maximumf_def, Ideal.addf_def, Ideal.ofBits_def, Ideal.ofBits_zero_f32]

/-- THE MESSAGES: entry (e, n) is the perceptron of edge e's joined row. -/
theorem msg_apply (e : Fin 640000) (n : Fin 128) :
    val_main_v27 (F := Ideal) x0 x1 x2 x3 x4 x5 x6 (ix2 e n)
      = Cert.Spec.mlp (fun j : Fin 257 => val_main_v18 (F := Ideal) x0 x1 x2 (ix2 e j)) (fun j k => x3 (ix2 j k))
          (fun k => x4 (ix1 k)) (fun k n' => x5 (ix2 k n')) (fun n' => x6 (ix1 n')) n := by
  rw [val_main_v27_apply, val_main_v24_apply, val_main_v26_apply, val_main_v25_apply, bidx26]
  simp only [lidx24, ridx24, edge_hidden_apply, Ideal.addf_def, Cert.Spec.mlp]

/-! ## The node network -/

/-- The joined node array is the node features beside the summed messages (by definition). -/
theorem v31_eq :
    val_main_v31 (F := Ideal) x0 x1 x2 x3 x4 x5 x6
      = concatenate S10000x256 1 [⟨S10000x128, x0⟩, ⟨S10000x128, val_main_v30 (F := Ideal) x0 x1 x2 x3 x4 x5 x6⟩]
          concatenates_S10000x128_S10000x128_S10000x256_d1 := rfl

/-- The summed messages are the scatter-add of the messages into the zero array at the receivers (by definition). -/
theorem v30_eq :
    val_main_v30 (F := Ideal) x0 x1 x2 x3 x4 x5 x6
      = Host.scatterAdd (F := Ideal) (φ := .f32) scatter_S10000x128_S640000x1_S640000x128_1_0_0_1 (val_main_v28 (F := Ideal))
          (val_main_v29 (F := Ideal) x1) (val_main_v27 (F := Ideal) x0 x1 x2 x3 x4 x5 x6) := rfl

/-- Hidden lane k of node r: the ramp of the first product's entry plus the first bias. -/
theorem node_hidden_apply (r : Fin 10000) (k : Fin 128) :
    val_main_v36 (F := Ideal) x0 x1 x2 x3 x4 x5 x6 x7 x8 (ix2 r k)
      = max ((∑ j : Fin 256, val_main_v31 (F := Ideal) x0 x1 x2 x3 x4 x5 x6 (ix2 r j) * x7 (ix2 j k)) + x8 (ix1 k)) 0 := by
  rw [val_main_v36_apply, val_main_v35_apply, val_main_v32_apply, val_main_v34_apply, val_main_v33_apply,
    val_main_call1_v0_apply, val_main_call1_cst_apply, bidx34]
  simp only [lidx32, ridx32, Ideal.maximumf_def, Ideal.addf_def, Ideal.ofBits_def, Ideal.ofBits_zero_f32]

/-- THE RESULT: entry (r, n) is node r's feature plus the perceptron of node r's joined row. -/
theorem out_apply (r : Fin 10000) (n : Fin 128) :
    val_main_v41 (F := Ideal) x0 x1 x2 x3 x4 x5 x6 x7 x8 x9 x10 (ix2 r n)
      = x0 (ix2 r n) + Cert.Spec.mlp (fun j : Fin 256 => val_main_v31 (F := Ideal) x0 x1 x2 x3 x4 x5 x6 (ix2 r j))
          (fun j k => x7 (ix2 j k)) (fun k => x8 (ix1 k)) (fun k n' => x9 (ix2 k n')) (fun n' => x10 (ix1 n')) n := by
  rw [val_main_v41_apply, val_main_v40_apply, val_main_v37_apply, val_main_v39_apply, val_main_v38_apply, bidx39]
  simp only [lidx37, ridx37, node_hidden_apply, Ideal.addf_def, Cert.Spec.mlp]

end Cert.ReferenceIdeal.RefValue

end
-- ==== Proof.RefBridge.lean ====
/-
  The reference's two perceptron stages as whole arrays.

  An index of a two-axis array is the pair of its coordinates, so a function given entry by entry at the pair
  (row, lane) of an index's own coordinates is the array itself. Read this way, the message array is the function
  sending an index to the perceptron of its row's joined edge features at its lane, and the result array is the
  function sending an index to the node feature there plus the perceptron of its row's joined node features at its
  lane. The zero array the messages are added into and the receiver column are the operations that define them.
-/
import proofs.«166899_j16939351015861_1_alg».proof.Proof.RefRead

noncomputable section

namespace Cert.ReferenceIdeal.RefValue

open Idealize.ShloMosaic Idealize.ShloMosaic.ValueIdx Cert.ReferenceIdeal Cert.ReferenceIdeal.Gen Cert.ReferenceIdeal.Read
open scoped BigOperators

/-- A two-axis index is the pair of its coordinates, each rebuilt from its value and its bound. -/
theorem ix2_coords {n0 n1 : Nat} (i : (⟨2, ![n0, n1]⟩ : Shape).Idx) :
    ix2 (⟨(i 0).val, idx2_lt0 i⟩ : Fin n0) (⟨(i 1).val, idx2_lt1 i⟩ : Fin n1) = i := by
  funext a; match a with | ⟨0, _⟩ => rfl | ⟨1, _⟩ => rfl

variable (x0 : (⟨S10000x128, .f32⟩ : BufTy).Contents (Elt Ideal)) (x1 : (⟨S2x640000, .i32⟩ : BufTy).Contents (Elt Ideal))
  (x2 : (⟨S640000x1, .f32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-- THE MESSAGE ARRAY: the perceptron of each index's row of joined edge features, at the index's lane. -/
theorem msg_bridge :
    (fun i : S640000x128.Idx => Cert.Spec.mlp
        (fun j : Fin 257 => val_main_v18 (F := Ideal) x0 x1 x2 (ix2 (⟨(i 0).val, idx2_lt0 i⟩ : Fin 640000) j))
        (fun j k => x3 (ix2 j k)) (fun k => x4 (ix1 k)) (fun k n' => x5 (ix2 k n')) (fun n' => x6 (ix1 n'))
        (⟨(i 1).val, idx2_lt1 i⟩ : Fin 128))
      = val_main_v27 (F := Ideal) x0 x1 x2 x3 x4 x5 x6 := by
  funext i
  exact (msg_apply x0 x1 x2 x3 x4 x5 x6 ⟨(i 0).val, idx2_lt0 i⟩ ⟨(i 1).val, idx2_lt1 i⟩).symm.trans
    (congrArg (val_main_v27 (F := Ideal) x0 x1 x2 x3 x4 x5 x6) (ix2_coords i))

/-- THE RESULT ARRAY: each index's node feature plus the perceptron of its row of joined node features, at its lane;
    the joined node array enters as a name for itself. -/
theorem out_bridge (X : S10000x256.Idx → EReal) (hX : X = val_main_v31 (F := Ideal) x0 x1 x2 x3 x4 x5 x6) :
    (fun i : S10000x128.Idx =>
        x0 (ix2 (⟨(i 0).val, idx2_lt0 i⟩ : Fin 10000) (⟨(i 1).val, idx2_lt1 i⟩ : Fin 128))
          + Cert.Spec.mlp (fun j : Fin 256 => X (ix2 (⟨(i 0).val, idx2_lt0 i⟩ : Fin 10000) j))
              (fun j k => x7 (ix2 j k)) (fun k => x8 (ix1 k)) (fun k n' => x9 (ix2 k n')) (fun n' => x10 (ix1 n'))
              (⟨(i 1).val, idx2_lt1 i⟩ : Fin 128))
      = val_main_v41 (F := Ideal) x0 x1 x2 x3 x4 x5 x6 x7 x8 x9 x10 := by
  subst hX
  funext i
  exact (out_apply x0 x1 x2 x3 x4 x5 x6 x7 x8 x9 x10 ⟨(i 0).val, idx2_lt0 i⟩ ⟨(i 1).val, idx2_lt1 i⟩).symm.trans
    (congrArg (val_main_v41 (F := Ideal) x0 x1 x2 x3 x4 x5 x6 x7 x8 x9 x10) (ix2_coords i))

/-- The array the messages are added into is the zero word broadcast over the nodes (by definition). -/
theorem v28_eq :
    val_main_v28 (F := Ideal)
      = broadcastInDim S10000x128 ![] bcast_S_S10000x128 (constant (F := Ideal) S_ .f32 0x00000000#32) := rfl

/-- The receiver column is the receiver row broadcast along a unit axis (by definition). -/
theorem v29_eq :
    val_main_v29 (F := Ideal) x1
      = broadcastInDim S640000x1 ![0] bcast_S640000_S640000x1_0 (val_main_v3 (F := Ideal) x1) := rfl

end Cert.ReferenceIdeal.RefValue

end
-- ==== Proof.Bridge.lean ====
/-
  The two programs compute one function of the eleven arguments.

  Both gather the sender's and receiver's rows at the same normalised indices, join them with the edge's scalar, apply the
  two-layer perceptron to every joined row, scatter-add the results into the receivers' rows, join the sums to the node
  features, apply the second perceptron to every node's joined row and add the node's features.  They differ in one place:
  the kernel pads each joined edge row from 257 to 384 entries with zeros (and the first weights with 127 more rows) before
  its perceptron.  A zero entry contributes 0·w = 0 to the first layer's sum, on the extended reals too, so the padded
  perceptron is the unpadded one (`msgs_eq`); everything around it is the same operation applied to equal arrays
  (`nodes_eq`), and the second perceptron is the same function of its joined rows (`result_eq`).
-/
import proofs.«166899_j16939351015861_1_alg».proof.Proof.KIHost
import proofs.«166899_j16939351015861_1_alg».proof.Proof.KIPad
import proofs.«166899_j16939351015861_1_alg».proof.Proof.RefBridge

set_option maxRecDepth 16384

noncomputable section

namespace Cert.Bridge

open Cert.KernelIdeal Cert.KernelIdeal.Gen
open Idealize.ShloMosaic Idealize.ShloMosaic.ValueIdx
open Cert.ReferenceIdeal.Read Cert.ReferenceIdeal.RefValue

/-- The padding value is zero: the integer 0, converted exactly. -/
theorem zero_pad : Host.zeroF ix0 = 0 := by
  show (((0#32 : BitVec 32).toInt : ℝ) : EReal) = 0
  simp

variable (a0 : S10000x128.Idx → EReal) (a1 : S2x640000.Idx → BitVec 32) (a2 : S640000x1.Idx → EReal) (a3 : S257x128.Idx → EReal)
  (a4 : S128.Idx → EReal) (a5 : S128x128.Idx → EReal) (a6 : S128.Idx → EReal) (a7 : S256x128.Idx → EReal) (a8 : S128.Idx → EReal)
  (a9 : S128x128.Idx → EReal) (a10 : S128.Idx → EReal)

/-- The kernel's messages (perceptron of the zero-padded joined rows) are the plain program's messages. -/
theorem msgs_eq : (MsgVal.msgArr (pad S640000x384 ![0, 0] ![0, 127] ![0, 0] (val_main_v18 (F := Ideal) a0 a1 a2) Host.zeroF pads_S640000x257_S640000x384_000_01270 h_S_) (pad S384x128 ![0, 0] ![127, 0] ![0, 0] a3 Host.zeroF pads_S257x128_S384x128_01270_000 h_S_) a4 a5 a6) = val_main_v27 (F := Ideal) a0 a1 a2 a3 a4 a5 a6 :=
  (PadVal.msgArr_pad (val_main_v18 (F := Ideal) a0 a1 a2) a3 Host.zeroF Host.zeroF a4 a5 a6 zero_pad).trans (msg_bridge a0 a1 a2 a3 a4 a5 a6)

/-- The joined node rows the update kernel is handed are the plain program's joined node rows. -/
theorem nodes_eq : (concatenate S10000x256 1 [⟨S10000x128, a0⟩, ⟨S10000x128, Host.scatterAdd (F := Ideal) (φ := .f32) scatter_S10000x128_S640000x1_S640000x128_1_0_0_1
          (broadcastInDim S10000x128 ![] bcast_S_S10000x128 (constant (F := Ideal) S_ .f32 0x00000000#32))
          (broadcastInDim S640000x1 ![0] bcast_S640000_S640000x1_0 (val_main_v3 (F := Ideal) a1))
          (MsgVal.msgArr (pad S640000x384 ![0, 0] ![0, 127] ![0, 0] (val_main_v18 (F := Ideal) a0 a1 a2) Host.zeroF pads_S640000x257_S640000x384_000_01270 h_S_) (pad S384x128 ![0, 0] ![127, 0] ![0, 0] a3 Host.zeroF pads_S257x128_S384x128_01270_000 h_S_) a4 a5 a6)⟩] concatenates_S10000x128_S10000x128_S10000x256_d1) = val_main_v31 (F := Ideal) a0 a1 a2 a3 a4 a5 a6 := by
  rw [v31_eq, v30_eq, ← msgs_eq a0 a1 a2 a3 a4 a5 a6]
  rfl

/-- THE RESULT of the kernel's program, as a term of the arguments, is the plain program's last stage. -/
theorem result_eq : UpdVal.updArr (concatenate S10000x256 1 [⟨S10000x128, a0⟩, ⟨S10000x128, Host.scatterAdd (F := Ideal) (φ := .f32) scatter_S10000x128_S640000x1_S640000x128_1_0_0_1
          (broadcastInDim S10000x128 ![] bcast_S_S10000x128 (constant (F := Ideal) S_ .f32 0x00000000#32))
          (broadcastInDim S640000x1 ![0] bcast_S640000_S640000x1_0 (val_main_v3 (F := Ideal) a1))
          (MsgVal.msgArr (pad S640000x384 ![0, 0] ![0, 127] ![0, 0] (val_main_v18 (F := Ideal) a0 a1 a2) Host.zeroF pads_S640000x257_S640000x384_000_01270 h_S_) (pad S384x128 ![0, 0] ![127, 0] ![0, 0] a3 Host.zeroF pads_S257x128_S384x128_01270_000 h_S_) a4 a5 a6)⟩] concatenates_S10000x128_S10000x128_S10000x256_d1) a0 a7 a8 a9 a10 = val_main_v41 (F := Ideal) a0 a1 a2 a3 a4 a5 a6 a7 a8 a9 a10 :=
  out_bridge a0 a1 a2 a3 a4 a5 a6 a7 a8 a9 a10 _ (nodes_eq a0 a1 a2 a3 a4 a5 a6)

end Cert.Bridge

end
-- ==== Proof.lean ====
/-
  The certificate of one message-passing layer of a graph network, in two forms: a program with two Pallas kernels (the edge
  perceptron over blocks of 2560 edges, the node perceptron with its residual add over blocks of 2000 nodes; the gathers, the
  join, the zero-padding, the scatter-add done by array operations around them) against the plain array program.

  FRAMES.  Each kernel program runs as seven segments — four stretches of array operations, the message kernel's region, a
  fifth stretch, the update kernel's region — and ends with every buffer at the contents a fold through the segments names;
  an argument's buffer is written by no segment, so it ends as launched (`Run.frame`, for the word-level program and for its
  idealization alike).  The plain program's frame is its generated run with the result dropped.

  PRESERVES.  The idealization rewrote no operation: nothing to state.

  VALUES, on the extended reals.  The kernel program's result is the update region's output array, which is block by block —
  hence everywhere — the node features plus the perceptron of the joined node rows (`UpdVal.final`); those rows hold the
  scatter-added output of the message region, which is everywhere the perceptron of the zero-padded joined edge rows
  (`MsgVal.final`).  A zero entry adds 0·w = 0 to a sum, so the padding changes nothing, and every other operation is the one
  the plain program applies to the same arrays: the two results are one function of the arguments (`Bridge.result_eq`).  No
  law used needs finiteness, so the precondition is never opened.
-/
import proofs.«166899_j16939351015861_1_alg».proof.Defs
import proofs.«166899_j16939351015861_1_alg».proof.Proof.Gen.Kernel
import proofs.«166899_j16939351015861_1_alg».proof.Proof.Gen.KernelIdeal
import proofs.«166899_j16939351015861_1_alg».proof.Proof.Gen.ReferenceIdeal
import proofs.«166899_j16939351015861_1_alg».proof.Proof.Gen.Pre_finite_inputs
import proofs.«166899_j16939351015861_1_alg».proof.Proof.Gen.ReferenceIdeal.Run
import proofs.«166899_j16939351015861_1_alg».proof.Proof.Gen.ReferenceIdeal.Read
import proofs.«166899_j16939351015861_1_alg».proof.Proof.KFrame
import proofs.«166899_j16939351015861_1_alg».proof.Proof.KIFrame
import proofs.«166899_j16939351015861_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run to the end with equal results: the kernel program's
    result is the last boundary's contents of its result buffer, a term of the arguments (`Host.result`) that is the plain
    program's last stage of the same arguments (`Bridge.result_eq`). -/
theorem algebraic : Cert.algebraic_KernelIdeal_ReferenceIdeal := by
  intro m ρ m' ρ' _ hagree
  refine ⟨fun c => Cert.KernelIdeal.Run.W7 m ρ c (Proc.devRef .tc Cert.KernelIdeal.main_v26), ?_, ?_⟩
  · exact (θ_run Cert.KernelIdeal.defs _ _).mono (fun r h c =>
      ⟨Cert.KernelIdeal.Run.run_at m ρ Cert.KernelIdeal.main_v26 (by decide) h c,
      Cert.KernelIdeal.Run.arg_end m ρ Cert.KernelIdeal.main_arg0 (by decide) (by decide) (by decide) (by decide) (by decide) (by decide) (by decide) (by decide) h c,
      Cert.KernelIdeal.Run.arg_end m ρ Cert.KernelIdeal.main_arg1 (by decide) (by decide) (by decide) (by decide) (by decide) (by decide) (by decide) (by decide) h c,
      Cert.KernelIdeal.Run.arg_end m ρ Cert.KernelIdeal.main_arg2 (by decide) (by decide) (by decide) (by decide) (by decide) (by decide) (by decide) (by decide) h c,
      Cert.KernelIdeal.Run.arg_end m ρ Cert.KernelIdeal.main_arg3 (by decide) (by decide) (by decide) (by decide) (by decide) (by decide) (by decide) (by decide) h c,
      Cert.KernelIdeal.Run.arg_end m ρ Cert.KernelIdeal.main_arg4 (by decide) (by decide) (by decide) (by decide) (by decide) (by decide) (by decide) (by decide) h c,
      Cert.KernelIdeal.Run.arg_end m ρ Cert.KernelIdeal.main_arg5 (by decide) (by decide) (by decide) (by decide) (by decide) (by decide) (by decide) (by decide) h c,
      Cert.KernelIdeal.Run.arg_end m ρ Cert.KernelIdeal.main_arg6 (by decide) (by decide) (by decide) (by decide) (by decide) (by decide) (by decide) (by decide) h c,
      Cert.KernelIdeal.Run.arg_end m ρ Cert.KernelIdeal.main_arg7 (by decide) (by decide) (by decide) (by decide) (by decide) (by decide) (by decide) (by decide) h c,
      Cert.KernelIdeal.Run.arg_end m ρ Cert.KernelIdeal.main_arg8 (by decide) (by decide) (by decide) (by decide) (by decide) (by decide) (by decide) (by decide) h c,
      Cert.KernelIdeal.Run.arg_end m ρ Cert.KernelIdeal.main_arg9 (by decide) (by decide) (by decide) (by decide) (by decide) (by decide) (by decide) (by decide) h c,
      Cert.KernelIdeal.Run.arg_end m ρ Cert.KernelIdeal.main_arg10 (by decide) (by decide) (by decide) (by decide) (by decide) (by decide) (by decide) (by decide) h c⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v41_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).symm.trans (Cert.KernelIdeal.Host.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
